-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S64x262144 : Shape := ⟨2, ![64, 262144]⟩
abbrev S64x1 : Shape := ⟨2, ![64, 1]⟩
abbrev S32x65536 : Shape := ⟨2, ![32, 65536]⟩
abbrev S32x1 : Shape := ⟨2, ![32, 1]⟩
abbrev S32x8192 : Shape := ⟨2, ![32, 8192]⟩
abbrev S32 : Shape := ⟨1, ![32]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x262144, .f32⟩
  | .hbm, ⟨3, _⟩ => ⟨S64x262144, .f32⟩
  | .hbm, ⟨4, _⟩ => ⟨S64x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S32x65536, .f32⟩
  | .local _ .vmem, ⟨1, _⟩ => ⟨S32x65536, .f32⟩
  | .local _ .vmem, ⟨2, _⟩ => ⟨S32x65536, .f32⟩
  | .local _ .vmem, ⟨3, _⟩ => ⟨S32x65536, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_mult1 : BitVec 32 :=
  let c0_i32_1 : BitVec 32 := 0#32
  c0_i32_1
def k0_mult2 : BitVec 32 :=
  let c8192_i32 : BitVec 32 := 8192#32
  c8192_i32
def k0_mult3 : BitVec 32 :=
  let c16384_i32 : BitVec 32 := 16384#32
  c16384_i32
def k0_mult4 : BitVec 32 :=
  let c24576_i32 : BitVec 32 := 24576#32
  c24576_i32
def k0_mult5 : BitVec 32 :=
  let c32768_i32 : BitVec 32 := 32768#32
  c32768_i32
def k0_mult6 : BitVec 32 :=
  let c40960_i32 : BitVec 32 := 40960#32
  c40960_i32
def k0_mult7 : BitVec 32 :=
  let c49152_i32 : BitVec 32 := 49152#32
  c49152_i32
def k0_mult8 : BitVec 32 :=
  let c57344_i32 : BitVec 32 := 57344#32
  c57344_i32
def k0_cond2 (i : grid0.Coords) : BitVec 1 :=
  let arg1 : BitVec 32 := BitVec.ofNat 32 (i 1).val
  let c3_i32 : BitVec 32 := 3#32
  let v235 : BitVec 1 := Scalar.cmpi .eq arg1 c3_i32
  let v236 : BitVec 32 := Scalar.extui v235
  let c0_i32_136 : BitVec 32 := 0#32
  let v237 : BitVec 1 := Scalar.cmpi .ne v236 c0_i32_136
  v237

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x1x512x512_S64x262144 : S64x1x512x512.ShapeCasts S64x262144
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x65536_S32x8192_0_0 : ∀ a, (![0, 0] : Fin 2 → Nat) a + S32x8192.size a ≤ S32x65536.size a
  h_S32x8192 : 0 < S32x8192.numel
  shapeCasts_S32x8192_S32x8192 : S32x8192.ShapeCasts S32x8192
  reduces_S32x8192_S32 : S32x8192.Reduces [1] S32
  shapeCasts_S32_S32x1 : S32.ShapeCasts S32x1
  inb_S32x65536_S32x8192_0_8192 : ∀ a, (![0, 8192] : Fin 2 → Nat) a + S32x8192.size a ≤ S32x65536.size a
  inb_S32x65536_S32x8192_0_16384 : ∀ a, (![0, 16384] : Fin 2 → Nat) a + S32x8192.size a ≤ S32x65536.size a
  inb_S32x65536_S32x8192_0_24576 : ∀ a, (![0, 24576] : Fin 2 → Nat) a + S32x8192.size a ≤ S32x65536.size a
  inb_S32x65536_S32x8192_0_32768 : ∀ a, (![0, 32768] : Fin 2 → Nat) a + S32x8192.size a ≤ S32x65536.size a
  inb_S32x65536_S32x8192_0_40960 : ∀ a, (![0, 40960] : Fin 2 → Nat) a + S32x8192.size a ≤ S32x65536.size a
  inb_S32x65536_S32x8192_0_49152 : ∀ a, (![0, 49152] : Fin 2 → Nat) a + S32x8192.size a ≤ S32x65536.size a
  inb_S32x65536_S32x8192_0_57344 : ∀ a, (![0, 57344] : Fin 2 → Nat) a + S32x8192.size a ≤ S32x65536.size a
  reducesTo_S64x1_S_d0_1 : S64x1.ReducesTo [0, 1] S_
  h_S_ : 0 < S_.numel
  hrank0 : 0 < grid0.rank
  k0_mult1_dvd : 8192 ∣ k0_mult1.toNat
  k0_mult2_dvd : 8192 ∣ k0_mult2.toNat
  k0_mult3_dvd : 8192 ∣ k0_mult3.toNat
  k0_mult4_dvd : 8192 ∣ k0_mult4.toNat
  k0_mult5_dvd : 8192 ∣ k0_mult5.toNat
  k0_mult6_dvd : 8192 ∣ k0_mult6.toNat
  k0_mult7_dvd : 8192 ∣ k0_mult7.toNat
  k0_mult8_dvd : 8192 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x65536.size a ≤ S64x262144.size a
  hwx0_0 : ∀ i : grid0.Coords, EltTy.bits .f32 = 32 ∨ (Rect.block (s := S64x262144) S32x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x65536.size a ≤ S64x262144.size a
  hwx0_1 : ∀ i : grid0.Coords, EltTy.bits .f32 = 32 ∨ (Rect.block (s := S64x262144) S32x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S64x1.size a
  hwx0_2 : ∀ i : grid0.Coords, EltTy.bits .f32 = 32 ∨ (Rect.block (s := S64x1) S32x1.size (cc0_transform_2 i) (hinb0_2 i)).WholeWords (EltTy.packing .f32)

variable [Facts₀]

abbrev win0_0 : Pipeline.Window sig grid0 :=
  Pipeline.Window.ofSpec (Memref.whole main_v0) S32x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1x512x512 : Shape := ⟨4, ![64, 1, 512, 512]⟩
abbrev S64x1x262144 : Shape := ⟨3, ![64, 1, 262144]⟩
abbrev S_ : Shape := ⟨0, ![]⟩
abbrev S64x2x262144 : Shape := ⟨3, ![64, 2, 262144]⟩
abbrev S64x2x2 : Shape := ⟨3, ![64, 2, 2]⟩
abbrev S64x1x1 : Shape := ⟨3, ![64, 1, 1]⟩
abbrev S64 : Shape := ⟨1, ![64]⟩
abbrev S64x1 : Shape := ⟨2, ![64, 1]⟩
abbrev S64x1x2 : Shape := ⟨3, ![64, 1, 2]⟩
abbrev S64x2 : Shape := ⟨2, ![64, 2]⟩

abbrev nBuf : Space → Nat
  | .hbm => 83
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x1x262144, .f32⟩
  | .hbm, ⟨3, _⟩ => ⟨S_, .f32⟩
  | .hbm, ⟨4, _⟩ => ⟨S64x1x262144, .f32⟩
  | .hbm, ⟨5, _⟩ => ⟨S64x1x262144, .f32⟩
  | .hbm, ⟨6, _⟩ => ⟨S64x2x262144, .f32⟩
  | .hbm, ⟨7, _⟩ => ⟨S64x1x262144, .f32⟩
  | .hbm, ⟨8, _⟩ => ⟨S_, .f32⟩
  | .hbm, ⟨9, _⟩ => ⟨S64x1x262144, .f32⟩
  | .hbm, ⟨10, _⟩ => ⟨S64x1x262144, .f32⟩
  | .hbm, ⟨11, _⟩ => ⟨S64x2x262144, .f32⟩
  | .hbm, ⟨12, _⟩ => ⟨S64x2x2, .f32⟩
  | .hbm, ⟨13, _⟩ => ⟨S64x1x1, .f32⟩
  | .hbm, ⟨14, _⟩ => ⟨S64, .f32⟩
  | .hbm, ⟨15, _⟩ => ⟨S64, .f32⟩
  | .hbm, ⟨16, _⟩ => ⟨S64x1x1, .f32⟩
  | .hbm, ⟨17, _⟩ => ⟨S64, .f32⟩
  | .hbm, ⟨18, _⟩ => ⟨S64, .f32⟩
  | .hbm, ⟨19, _⟩ => ⟨S64, .i1⟩
  | .hbm, ⟨20, _⟩ => ⟨S64x1, .i1⟩
  | .hbm, ⟨21, _⟩ => ⟨S64x1x2, .f32⟩
  | .hbm, ⟨22, _⟩ => ⟨S64x2, .f32⟩
  | .hbm, ⟨23, _⟩ => ⟨S64x1x2, .f32⟩
  | .hbm, ⟨24, _⟩ => ⟨S64x2, .f32⟩
  | .hbm, ⟨25, _⟩ => ⟨S64x2, .i1⟩
  | .hbm, ⟨26, _⟩ => ⟨S64x2, .f32⟩
  | .hbm, ⟨27, _⟩ => ⟨S64x1, .i1⟩
  | .hbm, ⟨28, _⟩ => ⟨S64x1x2, .f32⟩
  | .hbm, ⟨29, _⟩ => ⟨S64x2, .f32⟩
  | .hbm, ⟨30, _⟩ => ⟨S64x1x2, .f32⟩
  | .hbm, ⟨31, _⟩ => ⟨S64x2, .f32⟩
  | .hbm, ⟨32, _⟩ => ⟨S64x2, .i1⟩
  | .hbm, ⟨33, _⟩ => ⟨S64x2, .f32⟩
  | .hbm, ⟨34, _⟩ => ⟨S64x1, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .i1⟩
  | .hbm, ⟨39, _⟩ => ⟨S64x1, .f32⟩
  | .hbm, ⟨40, _⟩ => ⟨S64, .f32⟩
  | .hbm, ⟨41, _⟩ => ⟨S_, .i32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64x1, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .i1⟩
  | .hbm, ⟨50, _⟩ => ⟨S64x1, .f32⟩
  | .hbm, ⟨51, _⟩ => ⟨S64, .f32⟩
  | .hbm, ⟨52, _⟩ => ⟨S64, .f32⟩
  | .hbm, ⟨53, _⟩ => ⟨S_, .i32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64x1, .f32⟩
  | .hbm, ⟨58, _⟩ => ⟨S64, .f32⟩
  | .hbm, ⟨59, _⟩ => ⟨S64x1, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .i32⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S64, .i32⟩
  | .hbm, ⟨68, _⟩ => ⟨S64x1, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_call0_v0 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_call1_v0 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_cst : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_c : Ref sig .tc := ⟨.hbm, 41, rfl⟩
abbrev main_call0_call2_v0 : Ref sig .tc := ⟨.hbm, 42, rfl⟩
abbrev main_call0_call2_v1 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_cst_0 : Ref sig .tc := ⟨.hbm, 47, rfl⟩
abbrev main_call0_v28 : Ref sig .tc := ⟨.hbm, 48, rfl⟩
abbrev main_call0_v29 : Ref sig .tc := ⟨.hbm, 49, rfl⟩
abbrev main_call0_v30 : Ref sig .tc := ⟨.hbm, 50, rfl⟩
abbrev main_call0_v31 : Ref sig .tc := ⟨.hbm, 51, rfl⟩
abbrev main_call0_v32 : Ref sig .tc := ⟨.hbm, 52, rfl⟩
abbrev main_call0_c_1 : Ref sig .tc := ⟨.hbm, 53, rfl⟩
abbrev main_call0_call3_v0 : Ref sig .tc := ⟨.hbm, 54, rfl⟩
abbrev main_call0_call3_v1 : Ref sig .tc := ⟨.hbm, 55, rfl⟩
abbrev main_call0_v33 : Ref sig .tc := ⟨.hbm, 56, rfl⟩
abbrev main_call0_v34 : Ref sig .tc := ⟨.hbm, 57, rfl⟩
abbrev main_call0_v35 : Ref sig .tc := ⟨.hbm, 58, rfl⟩
abbrev main_call0_v36 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_c_2 : Ref sig .tc := ⟨.hbm, 63, rfl⟩
abbrev main_call0_c_3 : Ref sig .tc := ⟨.hbm, 64, rfl⟩
abbrev main_call0_call4_v0 : Ref sig .tc := ⟨.hbm, 65, rfl⟩
abbrev main_call0_call4_v1 : Ref sig .tc := ⟨.hbm, 66, rfl⟩
abbrev main_call0_v40 : Ref sig .tc := ⟨.hbm, 67, rfl⟩
abbrev main_call0_v41 : Ref sig .tc := ⟨.hbm, 68, rfl⟩
abbrev main_call0_v42 : Ref sig .tc := ⟨.hbm, 69, rfl⟩
abbrev main_call0_v43 : Ref sig .tc := ⟨.hbm, 70, rfl⟩
abbrev main_call0_v44 : Ref sig .tc := ⟨.hbm, 71, rfl⟩
abbrev main_v9 : Ref sig .tc := ⟨.hbm, 72, rfl⟩
abbrev main_v10 : Ref sig .tc := ⟨.hbm, 73, rfl⟩
abbrev main_cst_1 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_cst_2 : Ref sig .tc := ⟨.hbm, 79, rfl⟩
abbrev main_v15 : Ref sig .tc := ⟨.hbm, 80, rfl⟩
abbrev main_cst_3 : Ref sig .tc := ⟨.hbm, 81, rfl⟩
abbrev main_v16 : Ref sig .tc := ⟨.hbm, 82, rfl⟩

abbrev nD : Nat := 1
abbrev τ : Topo := Topo.v7x

variable {F : FTy → Type} [FloatOps F]

class Facts₀ : Prop where
  shapeCasts_S64x1x512x512_S64x1x262144 : S64x1x512x512.ShapeCasts S64x1x262144
  bcast_S_S64x1x262144 : S_.BroadcastsInDim S64x1x262144 (![] : Fin 0 → Fin S64x1x262144.rank)
  concatenates_S64x1x262144_S64x1x262144_S64x2x262144_d1 : Shape.Concatenates [S64x1x262144, S64x1x262144] S64x2x262144 1
  slices_S64x2x2_S64x1x1_0_1_0 : S64x2x2.Slices ![0, 1, 0] S64x1x1
  shapeCasts_S64x1x1_S64 : S64x1x1.ShapeCasts S64
  slices_S64x2x2_S64x1x1_0_0_0 : S64x2x2.Slices ![0, 0, 0] S64x1x1
  bcast_S64_S64x1_0 : S64.BroadcastsInDim S64x1 (![0] : Fin 1 → Fin S64x1.rank)
  slices_S64x2x2_S64x1x2_0_1_0 : S64x2x2.Slices ![0, 1, 0] S64x1x2
  shapeCasts_S64x1x2_S64x2 : S64x1x2.ShapeCasts S64x2
  slices_S64x2x2_S64x1x2_0_0_0 : S64x2x2.Slices ![0, 0, 0] S64x1x2
  bcast_S64x1_S64x2_0_1 : S64x1.BroadcastsInDim S64x2 (![0, 1] : Fin 2 → Fin S64x2.rank)
  slices_S64x2_S64x1_0_0 : S64x2.Slices ![0, 0] S64x1
  shapeCasts_S64x1_S64 : S64x1.ShapeCasts S64
  bcast_S_S64 : S_.BroadcastsInDim S64 (![] : Fin 0 → Fin S64.rank)
  slices_S64x2_S64x1_0_1 : S64x2.Slices ![0, 1] S64x1
  reducesTo_S64_S_d0 : S64.ReducesTo [0] S_
  h_S_ : 0 < S_.numel
  dot_S64x2x262144_S64x2x262144_S64x2x2_2_2_1_1_0_0_wf : DotDims.WF S64x2x262144 S64x2x262144 S64x2x2 [2] [2] [1] [1] [0] [0]

variable [Facts₀]

def dot_S64x2x262144_S64x2x262144_S64x2x2_2_2_1_1_0_0 : DotDims S64x2x262144 S64x2x262144 S64x2x2 where
  lhsContracting := [2]
  rhsContracting := [2]
  lhsNonContracting := [1]
  rhsNonContracting := [1]
  lhsBatch := [0]
  rhsBatch := [0]
  wf := dot_S64x2x262144_S64x2x262144_S64x2x2_2_2_1_1_0_0_wf

class Facts : Prop extends Facts₀ where

variable [Facts]
-- ==== Proof.KStep.lean ====
/-
  What one grid point of the kernel leaves behind, as values.

  A point holds a [32, 65536] block of each input. The body walks it in eight chunks of 8192 columns; for each chunk it
  adds to three [32, 1] accumulators the row sums of x * y, of x and of y over the chunk. At the first point of a row
  block (column-block 0) the accumulators start from the zero block, otherwise from what the point before left. At the
  last point of a row block (column-block 3) the body also stores the output block: from the three accumulated columns
  S_xy, S_x, S_y the value  0 - log(|S_xy (N - S_x - S_y + S_xy) - (S_x - S_xy)(S_y - S_xy)| + eps).

  Here: the three one-chunk steps, the eight-chunk chains, and, for each of the three control cases, what the run leaves
  in each accumulator and (last case) in the output block: the last store into a buffer wins, and each store's operand
  reads back the store before it.
-/
import proofs.«153985_j17600775979806_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.KV
open Cert.KernelIdeal Cert.KernelIdeal.Gen
variable {F : FTy → Type} [FloatOps F]

theorem hz : (![0, 0] : Fin 2 → Nat) = fun _ => 0 := funext fun a => by fin_cases a <;> rfl

/-- A load through the whole-shape rectangle at zero offsets of what a LIST of stores left, the last of them through the
    same rectangle, reads that last store's operand, whatever the earlier stores were. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The zero block an accumulator is reset to. -/
def zeroBlock : Vec F S32x1 .f32 := k0_pay1

/-- One chunk's step of the product accumulator: acc + (row sums of a * b), as a column. -/
def stepXY (a b : Vec F S32x8192 .f32) (acc : Vec F S32x1 .f32) : Vec F S32x1 .f32 := k0_pay6 a b acc
/-- One chunk's step of a plain accumulator: acc + (row sums of a), as a column. -/
def stepX (a : Vec F S32x8192 .f32) (acc : Vec F S32x1 .f32) : Vec F S32x1 .f32 := k0_pay7 a acc
def stepY (b : Vec F S32x8192 .f32) (acc : Vec F S32x1 .f32) : Vec F S32x1 .f32 := k0_pay8 b acc

/-- The eight chunks of a point, first to last, folded into the product accumulator. -/
def accXY (x0 x1 : Vec F S32x65536 .f32) (acc : Vec F S32x1 .f32) : Vec F S32x1 .f32 :=
  (stepXY (View.ld x0 (Rect.unit (s := S32x65536) ![0, 57344] S32x8192.size inb_S32x65536_S32x8192_0_57344)) (View.ld x1 (Rect.unit (s := S32x65536) ![0, 57344] S32x8192.size inb_S32x65536_S32x8192_0_57344)) (stepXY (View.ld x0 (Rect.unit (s := S32x65536) ![0, 49152] S32x8192.size inb_S32x65536_S32x8192_0_49152)) (View.ld x1 (Rect.unit (s := S32x65536) ![0, 49152] S32x8192.size inb_S32x65536_S32x8192_0_49152)) (stepXY (View.ld x0 (Rect.unit (s := S32x65536) ![0, 40960] S32x8192.size inb_S32x65536_S32x8192_0_40960)) (View.ld x1 (Rect.unit (s := S32x65536) ![0, 40960] S32x8192.size inb_S32x65536_S32x8192_0_40960)) (stepXY (View.ld x0 (Rect.unit (s := S32x65536) ![0, 32768] S32x8192.size inb_S32x65536_S32x8192_0_32768)) (View.ld x1 (Rect.unit (s := S32x65536) ![0, 32768] S32x8192.size inb_S32x65536_S32x8192_0_32768)) (stepXY (View.ld x0 (Rect.unit (s := S32x65536) ![0, 24576] S32x8192.size inb_S32x65536_S32x8192_0_24576)) (View.ld x1 (Rect.unit (s := S32x65536) ![0, 24576] S32x8192.size inb_S32x65536_S32x8192_0_24576)) (stepXY (View.ld x0 (Rect.unit (s := S32x65536) ![0, 16384] S32x8192.size inb_S32x65536_S32x8192_0_16384)) (View.ld x1 (Rect.unit (s := S32x65536) ![0, 16384] S32x8192.size inb_S32x65536_S32x8192_0_16384)) (stepXY (View.ld x0 (Rect.unit (s := S32x65536) ![0, 8192] S32x8192.size inb_S32x65536_S32x8192_0_8192)) (View.ld x1 (Rect.unit (s := S32x65536) ![0, 8192] S32x8192.size inb_S32x65536_S32x8192_0_8192)) (stepXY (View.ld x0 (Rect.unit (s := S32x65536) ![0, 0] S32x8192.size inb_S32x65536_S32x8192_0_0)) (View.ld x1 (Rect.unit (s := S32x65536) ![0, 0] S32x8192.size inb_S32x65536_S32x8192_0_0)) acc))))))))
def accX (x0 : Vec F S32x65536 .f32) (acc : Vec F S32x1 .f32) : Vec F S32x1 .f32 :=
  (stepX (View.ld x0 (Rect.unit (s := S32x65536) ![0, 57344] S32x8192.size inb_S32x65536_S32x8192_0_57344)) (stepX (View.ld x0 (Rect.unit (s := S32x65536) ![0, 49152] S32x8192.size inb_S32x65536_S32x8192_0_49152)) (stepX (View.ld x0 (Rect.unit (s := S32x65536) ![0, 40960] S32x8192.size inb_S32x65536_S32x8192_0_40960)) (stepX (View.ld x0 (Rect.unit (s := S32x65536) ![0, 32768] S32x8192.size inb_S32x65536_S32x8192_0_32768)) (stepX (View.ld x0 (Rect.unit (s := S32x65536) ![0, 24576] S32x8192.size inb_S32x65536_S32x8192_0_24576)) (stepX (View.ld x0 (Rect.unit (s := S32x65536) ![0, 16384] S32x8192.size inb_S32x65536_S32x8192_0_16384)) (stepX (View.ld x0 (Rect.unit (s := S32x65536) ![0, 8192] S32x8192.size inb_S32x65536_S32x8192_0_8192)) (stepX (View.ld x0 (Rect.unit (s := S32x65536) ![0, 0] S32x8192.size inb_S32x65536_S32x8192_0_0)) acc))))))))
def accY (x1 : Vec F S32x65536 .f32) (acc : Vec F S32x1 .f32) : Vec F S32x1 .f32 :=
  (stepY (View.ld x1 (Rect.unit (s := S32x65536) ![0, 57344] S32x8192.size inb_S32x65536_S32x8192_0_57344)) (stepY (View.ld x1 (Rect.unit (s := S32x65536) ![0, 49152] S32x8192.size inb_S32x65536_S32x8192_0_49152)) (stepY (View.ld x1 (Rect.unit (s := S32x65536) ![0, 40960] S32x8192.size inb_S32x65536_S32x8192_0_40960)) (stepY (View.ld x1 (Rect.unit (s := S32x65536) ![0, 32768] S32x8192.size inb_S32x65536_S32x8192_0_32768)) (stepY (View.ld x1 (Rect.unit (s := S32x65536) ![0, 24576] S32x8192.size inb_S32x65536_S32x8192_0_24576)) (stepY (View.ld x1 (Rect.unit (s := S32x65536) ![0, 16384] S32x8192.size inb_S32x65536_S32x8192_0_16384)) (stepY (View.ld x1 (Rect.unit (s := S32x65536) ![0, 8192] S32x8192.size inb_S32x65536_S32x8192_0_8192)) (stepY (View.ld x1 (Rect.unit (s := S32x65536) ![0, 0] S32x8192.size inb_S32x65536_S32x8192_0_0)) acc))))))))

/-- The output block from the three accumulated columns. -/
def epilogue (sxy sx sy : Vec F S32x1 .f32) : Vec F S32x1 .f32 := k0_pay48 sxy sx sy

/-- Case A, first carried buffer: the running sum of products over the point's eight chunks, from the zero block. -/
theorem sXY_A (c : Dev nD) (i : grid0.Coords) (arg2 : Memref sig .tc .vmem S32x65536 .f32) (harg2 : arg2.IsWhole) (arg3 : Memref sig .tc .vmem S32x65536 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : cond0_0 i) (hc1 : ¬cond0_1 i)
    (x0 : Vec F S32x65536 .f32) (x1 : Vec F S32x65536 .f32) :
    sout0_A_0 c i arg2 harg2 arg3 harg3 arg4 harg4 arg5 harg5 arg6 harg6 arg7 harg7 hc0 hc1 x0 x1 = accXY x0 x1 zeroBlock := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S32x1) hz]
  simp only [readCov_cons_unit_zero (S := S32x1) _ hz, View.readCov_unit_zero (S := S32x1) _ hz]
  simp only [View.readAt_eq_ld, harg2.read_unread, harg3.read_unread, harg5.read_unread, View.ld_unit_zero (S := S32x1) hz]
  rfl

/-- Case A, second carried buffer: the running sum of the first input. -/
theorem sX_A (c : Dev nD) (i : grid0.Coords) (arg2 : Memref sig .tc .vmem S32x65536 .f32) (harg2 : arg2.IsWhole) (arg3 : Memref sig .tc .vmem S32x65536 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : cond0_0 i) (hc1 : ¬cond0_1 i)
    (x0 : Vec F S32x65536 .f32) (x1 : Vec F S32x65536 .f32) :
    sout0_A_1 c i arg2 harg2 arg3 harg3 arg4 harg4 arg5 harg5 arg6 harg6 arg7 harg7 hc0 hc1 x0 x1 = accX x0 zeroBlock := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S32x1) hz]
  simp only [readCov_cons_unit_zero (S := S32x1) _ hz, View.readCov_unit_zero (S := S32x1) _ hz]
  simp only [View.readAt_eq_ld, harg2.read_unread, harg3.read_unread, harg6.read_unread, View.ld_unit_zero (S := S32x1) hz]
  rfl

/-- Case A, third carried buffer: the running sum of the second input. -/
theorem sY_A (c : Dev nD) (i : grid0.Coords) (arg2 : Memref sig .tc .vmem S32x65536 .f32) (harg2 : arg2.IsWhole) (arg3 : Memref sig .tc .vmem S32x65536 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : cond0_0 i) (hc1 : ¬cond0_1 i)
    (x0 : Vec F S32x65536 .f32) (x1 : Vec F S32x65536 .f32) :
    sout0_A_2 c i arg2 harg2 arg3 harg3 arg4 harg4 arg5 harg5 arg6 harg6 arg7 harg7 hc0 hc1 x0 x1 = accY x1 zeroBlock := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S32x1) hz]
  simp only [readCov_cons_unit_zero (S := S32x1) _ hz, View.readCov_unit_zero (S := S32x1) _ hz]
  simp only [View.readAt_eq_ld, harg2.read_unread, harg3.read_unread, harg7.read_unread, View.ld_unit_zero (S := S32x1) hz]
  rfl

/-- Case B, first carried buffer: the running sum of products over the point's eight chunks, from what the point before left. -/
theorem sXY_B (c : Dev nD) (i : grid0.Coords) (arg2 : Memref sig .tc .vmem S32x65536 .f32) (harg2 : arg2.IsWhole) (arg3 : Memref sig .tc .vmem S32x65536 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : ¬cond0_1 i)
    (x0 : Vec F S32x65536 .f32) (x1 : Vec F S32x65536 .f32) (xs0 : Vec F S32x1 .f32) (xs1 : Vec F S32x1 .f32) (xs2 : Vec F S32x1 .f32) :
    sout0_B_0 c i arg2 harg2 arg3 harg3 arg4 harg4 arg5 harg5 arg6 harg6 arg7 harg7 hc0 hc1 x0 x1 xs0 xs1 xs2 = accXY x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_cons_unit_zero (S := S32x1) hz]
  simp only [readCov_cons_unit_zero (S := S32x1) _ hz, View.readCov_unit_zero (S := S32x1) _ hz]
  simp only [View.readAt_eq_ld, harg2.read_unread, harg3.read_unread, harg5.read_unread, View.ld_unit_zero (S := S32x1) hz]
  rfl

/-- Case B, second carried buffer: the running sum of the first input. -/
theorem sX_B (c : Dev nD) (i : grid0.Coords) (arg2 : Memref sig .tc .vmem S32x65536 .f32) (harg2 : arg2.IsWhole) (arg3 : Memref sig .tc .vmem S32x65536 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : ¬cond0_1 i)
    (x0 : Vec F S32x65536 .f32) (x1 : Vec F S32x65536 .f32) (xs0 : Vec F S32x1 .f32) (xs1 : Vec F S32x1 .f32) (xs2 : Vec F S32x1 .f32) :
    sout0_B_1 c i arg2 harg2 arg3 harg3 arg4 harg4 arg5 harg5 arg6 harg6 arg7 harg7 hc0 hc1 x0 x1 xs0 xs1 xs2 = accX x0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_cons_unit_zero (S := S32x1) hz]
  simp only [readCov_cons_unit_zero (S := S32x1) _ hz, View.readCov_unit_zero (S := S32x1) _ hz]
  simp only [View.readAt_eq_ld, harg2.read_unread, harg3.read_unread, harg6.read_unread, View.ld_unit_zero (S := S32x1) hz]
  rfl

/-- Case B, third carried buffer: the running sum of the second input. -/
theorem sY_B (c : Dev nD) (i : grid0.Coords) (arg2 : Memref sig .tc .vmem S32x65536 .f32) (harg2 : arg2.IsWhole) (arg3 : Memref sig .tc .vmem S32x65536 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : ¬cond0_1 i)
    (x0 : Vec F S32x65536 .f32) (x1 : Vec F S32x65536 .f32) (xs0 : Vec F S32x1 .f32) (xs1 : Vec F S32x1 .f32) (xs2 : Vec F S32x1 .f32) :
    sout0_B_2 c i arg2 harg2 arg3 harg3 arg4 harg4 arg5 harg5 arg6 harg6 arg7 harg7 hc0 hc1 x0 x1 xs0 xs1 xs2 = accY x1 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_cons_unit_zero (S := S32x1) hz]
  simp only [readCov_cons_unit_zero (S := S32x1) _ hz, View.readCov_unit_zero (S := S32x1) _ hz]
  simp only [View.readAt_eq_ld, harg2.read_unread, harg3.read_unread, harg7.read_unread, View.ld_unit_zero (S := S32x1) hz]
  rfl

/-- Case C, first carried buffer: the running sum of products over the point's eight chunks, from what the point before left. -/
theorem sXY_C (c : Dev nD) (i : grid0.Coords) (arg2 : Memref sig .tc .vmem S32x65536 .f32) (harg2 : arg2.IsWhole) (arg3 : Memref sig .tc .vmem S32x65536 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : cond0_1 i)
    (x0 : Vec F S32x65536 .f32) (x1 : Vec F S32x65536 .f32) (xs0 : Vec F S32x1 .f32) (xs1 : Vec F S32x1 .f32) (xs2 : Vec F S32x1 .f32) :
    sout0_C_0 c i arg2 harg2 arg3 harg3 arg4 harg4 arg5 harg5 arg6 harg6 arg7 harg7 hc0 hc1 x0 x1 xs0 xs1 xs2 = accXY x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S32x1) hz]
  simp only [readCov_cons_unit_zero (S := S32x1) _ hz, View.readCov_unit_zero (S := S32x1) _ hz]
  simp only [View.readAt_eq_ld, harg2.read_unread, harg3.read_unread, harg5.read_unread, View.ld_unit_zero (S := S32x1) hz]
  rfl

/-- Case C, second carried buffer: the running sum of the first input. -/
theorem sX_C (c : Dev nD) (i : grid0.Coords) (arg2 : Memref sig .tc .vmem S32x65536 .f32) (harg2 : arg2.IsWhole) (arg3 : Memref sig .tc .vmem S32x65536 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : cond0_1 i)
    (x0 : Vec F S32x65536 .f32) (x1 : Vec F S32x65536 .f32) (xs0 : Vec F S32x1 .f32) (xs1 : Vec F S32x1 .f32) (xs2 : Vec F S32x1 .f32) :
    sout0_C_1 c i arg2 harg2 arg3 harg3 arg4 harg4 arg5 harg5 arg6 harg6 arg7 harg7 hc0 hc1 x0 x1 xs0 xs1 xs2 = accX x0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S32x1) hz]
  simp only [readCov_cons_unit_zero (S := S32x1) _ hz, View.readCov_unit_zero (S := S32x1) _ hz]
  simp only [View.readAt_eq_ld, harg2.read_unread, harg3.read_unread, harg6.read_unread, View.ld_unit_zero (S := S32x1) hz]
  rfl

/-- Case C, third carried buffer: the running sum of the second input. -/
theorem sY_C (c : Dev nD) (i : grid0.Coords) (arg2 : Memref sig .tc .vmem S32x65536 .f32) (harg2 : arg2.IsWhole) (arg3 : Memref sig .tc .vmem S32x65536 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : cond0_1 i)
    (x0 : Vec F S32x65536 .f32) (x1 : Vec F S32x65536 .f32) (xs0 : Vec F S32x1 .f32) (xs1 : Vec F S32x1 .f32) (xs2 : Vec F S32x1 .f32) :
    sout0_C_2 c i arg2 harg2 arg3 harg3 arg4 harg4 arg5 harg5 arg6 harg6 arg7 harg7 hc0 hc1 x0 x1 xs0 xs1 xs2 = accY x1 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S32x1) hz]
  simp only [readCov_cons_unit_zero (S := S32x1) _ hz, View.readCov_unit_zero (S := S32x1) _ hz]
  simp only [View.readAt_eq_ld, harg2.read_unread, harg3.read_unread, harg7.read_unread, View.ld_unit_zero (S := S32x1) hz]
  rfl

/-- Case C, the output block: the epilogue of the three accumulators as this point leaves them. -/
theorem out_C (c : Dev nD) (i : grid0.Coords) (arg2 : Memref sig .tc .vmem S32x65536 .f32) (harg2 : arg2.IsWhole) (arg3 : Memref sig .tc .vmem S32x65536 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (hc0 : ¬cond0_0 i) (hc1 : cond0_1 i)
    (x0 : Vec F S32x65536 .f32) (x1 : Vec F S32x65536 .f32) (xs0 : Vec F S32x1 .f32) (xs1 : Vec F S32x1 .f32) (xs2 : Vec F S32x1 .f32) :
    out0_C_2 c i arg2 harg2 arg3 harg3 arg4 harg4 arg5 harg5 arg6 harg6 arg7 harg7 hc0 hc1 x0 x1 xs0 xs1 xs2 = epilogue (accXY x0 x1 xs0) (accX x0 xs1) (accY x1 xs2) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S32x1) hz]
  simp only [readCov_cons_unit_zero (S := S32x1) _ hz, View.readCov_unit_zero (S := S32x1) _ hz]
  simp only [View.readAt_eq_ld, harg2.read_unread, harg3.read_unread, harg5.read_unread, harg6.read_unread, harg7.read_unread, View.ld_unit_zero (S := S32x1) hz]
  rfl

end Cert.KernelIdeal.KV
end
-- ==== Proof.LibKeepdims.lean ====
/-
  A column kept after a row reduction, read at an index given by coordinates.

  A sum over the last axis of an [a, b] array with the reduced axis KEPT is an [a] vector viewed as an [a, 1] column
  and then broadcast along the second axis. Two layout facts say what such a column reads:
  • an [a] vector cast to [a, 1] reads, at (p, 0), the vector at p (the two row-major positions coincide);
  • an [a, 1] column broadcast to [a, b] reads, at (p, c), the column at (p, 0), whatever c.
  Beside them: the index a one-axis reduction inserts its summed coordinate into, for a reduction of an [a, b]
  array over its last axis — the reduced index (p) with coordinate k inserted is (p, k).
-/
import Idealize.ShloMosaic.Lib.Pipeline.Value
import Idealize.ShloMosaic.Lib.ValueIdx
import Idealize.ShloMosaic.PureOps.Reduce

namespace Cert.Rbf.Keepdims

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf.Keepdims
-- ==== Proof.KIdeal.lean ====
/-
  One grid point's arithmetic read at the ideal instance, row by row.

  A chunk is columns off .. off + 8192 of the point's [32, 65536] block. One step adds to an accumulator column the
  chunk's row sum (of x * y, of x, or of y); the extended reals' addition is associative, so the eight steps of a point
  add the row's sum over all 65536 columns of the block:
      accXY x0 x1 acc (r, 0) = acc (r, 0) + sum_q x0 (r, q) * x1 (r, q).
  Sums over a bounded index are moved to sums over ranges of naturals (the summand extended by zero past the bound), where
  consecutive windows join by Finset.sum_range_add.
  The output block's entry is the determinant of the three accumulated sums, |.| + eps, logarithm, subtracted from zero.
-/
import proofs.«153985_j17600775979806_2_alg».proof.Proof.KStep
import proofs.«153985_j17600775979806_2_alg».proof.Proof.LibKeepdims
import Idealize.ShloMosaic.Lib.ValueIdx
import Idealize.ShloMosaic.PureOps.Ideal.Laws

noncomputable section
open scoped BigOperators
open Idealize.ShloMosaic Idealize.ShloMosaic.TcCoe Idealize.ShloMosaic.ValueIdx

namespace Cert.KernelIdeal.KV
open Cert.KernelIdeal Cert.KernelIdeal.Gen

/-- A chunk of a block: columns off .. off + 8192 of row r. -/
theorem ld_chunk {F : FTy → Type} (x : Vec F S32x65536 .f32) (off : ℕ) (inb : ∀ a, (![0, off] : Fin 2 → Nat) a + S32x8192.size a ≤ S32x65536.size a)
    (r : Fin 32) (k : Fin 8192) (hk : off + k.val < 65536) :
    View.ld x (Rect.unit (s := S32x65536) ![0, off] S32x8192.size inb) (ix2 r k) = x (ix2 r (⟨off + k.val, hk⟩ : Fin 65536)) := by
  show x _ = x _
  refine congrArg x (funext fun a => Fin.ext ?_)
  match a with
  | ⟨0, _⟩ => show 0 + 1 * r.val = r.val; omega
  | ⟨1, _⟩ => show off + 1 * k.val = off + k.val; omega

/-- The row sum of a [32, 8192] chunk over its columns, at row r. -/
theorem rowSum_apply (v : FVec Ideal S32x8192 .f32) (h : S32x8192.Reduces [1] S32) (hφ : FKind.Formats .f32)
    (hacc : (0x00000000#32 : BitVec 32) = FKind.add.neutral .f32 hφ) (r : Fin 32) :
    multiReduction (F := Ideal) .add [1] S32 v 0x00000000#32 h hφ hacc (ix1 r) = ∑ k : Fin 8192, v (ix2 r k) := by
  refine (Ideal.multiReduction_add_single v _ h hφ hacc (ix1 r)).trans ?_
  refine Finset.sum_congr rfl fun k _ => congrArg v (funext fun a => ?_)
  match a with
  | ⟨0, _⟩ => rfl
  | ⟨1, _⟩ => rfl

/-- One chunk's step of the product accumulator, at row r. -/
theorem stepXY_apply (a b : Vec Ideal S32x8192 .f32) (acc : Vec Ideal S32x1 .f32) (r : Fin 32) (u : Fin 1) :
    stepXY (F := Ideal) a b acc (ix2 r u) = acc (ix2 r u) + ∑ k : Fin 8192, a (ix2 r k) * b (ix2 r k) := by
  unfold stepXY k0_pay6 k0_pay4 k0_pay5
  simp only [shapeCast_self]
  show acc (ix2 r u) + shapeCast S32x1 _ shapeCasts_S32_S32x1 (ix2 r u) = _
  refine congrArg (acc (ix2 r u) + ·) ?_
  refine (Cert.Rbf.Keepdims.shapeCast_a_a1_apply _ _ r u).trans ?_
  exact rowSum_apply _ _ _ _ r

/-- One chunk's step of a plain accumulator, at row r. -/
theorem stepX_apply (a : Vec Ideal S32x8192 .f32) (acc : Vec Ideal S32x1 .f32) (r : Fin 32) (u : Fin 1) :
    stepX (F := Ideal) a acc (ix2 r u) = acc (ix2 r u) + ∑ k : Fin 8192, a (ix2 r k) := by
  unfold stepX k0_pay7 k0_pay4
  simp only [shapeCast_self]
  show acc (ix2 r u) + shapeCast S32x1 _ shapeCasts_S32_S32x1 (ix2 r u) = _
  refine congrArg (acc (ix2 r u) + ·) ?_
  refine (Cert.Rbf.Keepdims.shapeCast_a_a1_apply _ _ r u).trans ?_
  exact rowSum_apply _ _ _ _ r

theorem stepY_apply (b : Vec Ideal S32x8192 .f32) (acc : Vec Ideal S32x1 .f32) (r : Fin 32) (u : Fin 1) :
    stepY (F := Ideal) b acc (ix2 r u) = acc (ix2 r u) + ∑ k : Fin 8192, b (ix2 r k) := by
  unfold stepY k0_pay8 k0_pay5
  simp only [shapeCast_self]
  show acc (ix2 r u) + shapeCast S32x1 _ shapeCasts_S32_S32x1 (ix2 r u) = _
  refine congrArg (acc (ix2 r u) + ·) ?_
  refine (Cert.Rbf.Keepdims.shapeCast_a_a1_apply _ _ r u).trans ?_
  exact rowSum_apply _ _ _ _ r

/-! ## Eight chunks are the whole block -/

/-- A function of a bounded index, extended by zero past the bound, so that sums over ranges of naturals can be
    split and joined. -/
def ext {N : ℕ} (g : Fin N → EReal) (q : ℕ) : EReal := if h : q < N then g ⟨q, h⟩ else 0

theorem ext_of_lt {N : ℕ} (g : Fin N → EReal) (q : ℕ) (h : q < N) : ext g q = g ⟨q, h⟩ := dif_pos h

/-- The sum over all indices is the sum of the extension over the range. -/
theorem sum_eq_range {N : ℕ} (g : Fin N → EReal) : (∑ q : Fin N, g q) = ∑ q ∈ Finset.range N, ext g q := by
  rw [Finset.sum_range]; exact Finset.sum_congr rfl fun q _ => (ext_of_lt g q.val q.isLt).symm

/-- A sum over a window of L consecutive indices from off, as a sum over a shifted range. -/
theorem window_sum {N : ℕ} (g : Fin N → EReal) (off L : ℕ) (hoff : off + L ≤ N) :
    (∑ k : Fin L, g ⟨off + k.val, by have := k.isLt; omega⟩) = ∑ k ∈ Finset.range L, ext g (off + k) := by
  rw [Finset.sum_range]
  refine Finset.sum_congr rfl fun k _ => ?_
  rw [ext_of_lt]

/-- Eight consecutive windows of 8192 make the range of 65536. -/
theorem eight_windows (f : ℕ → EReal) (acc : EReal) :
    acc + (∑ k ∈ Finset.range 8192, f (0 + k)) + (∑ k ∈ Finset.range 8192, f (8192 + k))
      + (∑ k ∈ Finset.range 8192, f (16384 + k)) + (∑ k ∈ Finset.range 8192, f (24576 + k))
      + (∑ k ∈ Finset.range 8192, f (32768 + k)) + (∑ k ∈ Finset.range 8192, f (40960 + k))
      + (∑ k ∈ Finset.range 8192, f (49152 + k)) + (∑ k ∈ Finset.range 8192, f (57344 + k))
      = acc + ∑ q ∈ Finset.range 65536, f q := by
  rw [show 65536 = 57344 + 8192 from rfl, Finset.sum_range_add, show 57344 = 49152 + 8192 from rfl, Finset.sum_range_add,
    show 49152 = 40960 + 8192 from rfl, Finset.sum_range_add, show 40960 = 32768 + 8192 from rfl, Finset.sum_range_add,
    show 32768 = 24576 + 8192 from rfl, Finset.sum_range_add, show 24576 = 16384 + 8192 from rfl, Finset.sum_range_add,
    show 16384 = 8192 + 8192 from rfl, Finset.sum_range_add]
  simp only [Nat.zero_add, add_assoc]

/-- The eight chunk sums, first to last, added to an accumulator, are the accumulator plus the sum over the block. -/
theorem eight_chunks (g : Fin 65536 → EReal) (acc : EReal) :
    acc + (∑ k ∈ Finset.range 8192, ext g (0 + k)) + (∑ k ∈ Finset.range 8192, ext g (8192 + k))
      + (∑ k ∈ Finset.range 8192, ext g (16384 + k)) + (∑ k ∈ Finset.range 8192, ext g (24576 + k))
      + (∑ k ∈ Finset.range 8192, ext g (32768 + k)) + (∑ k ∈ Finset.range 8192, ext g (40960 + k))
      + (∑ k ∈ Finset.range 8192, ext g (49152 + k)) + (∑ k ∈ Finset.range 8192, ext g (57344 + k))
      = acc + ∑ q : Fin 65536, g q := by
  rw [sum_eq_range]; exact eight_windows (ext g) acc

/-- A chunk's sum of products, over the block's columns. -/
theorem chunkXY_sum (x0 x1 : Vec Ideal S32x65536 .f32) (off : ℕ)
    (inb : ∀ a, (![0, off] : Fin 2 → Nat) a + S32x8192.size a ≤ S32x65536.size a) (hoff : off + 8192 ≤ 65536) (r : Fin 32) :
    (∑ k : Fin 8192, View.ld x0 (Rect.unit (s := S32x65536) ![0, off] S32x8192.size inb) (ix2 r k)
        * View.ld x1 (Rect.unit (s := S32x65536) ![0, off] S32x8192.size inb) (ix2 r k))
      = ∑ k ∈ Finset.range 8192, ext (fun q : Fin 65536 => x0 (ix2 r q) * x1 (ix2 r q)) (off + k) := by
  rw [← window_sum (fun q : Fin 65536 => x0 (ix2 r q) * x1 (ix2 r q)) off 8192 hoff]
  refine Finset.sum_congr rfl fun k _ => ?_
  rw [ld_chunk x0 off inb r k (by have := k.isLt; omega), ld_chunk x1 off inb r k (by have := k.isLt; omega)]

/-- A chunk's plain sum, over the block's columns. -/
theorem chunk_sum (x0 : Vec Ideal S32x65536 .f32) (off : ℕ)
    (inb : ∀ a, (![0, off] : Fin 2 → Nat) a + S32x8192.size a ≤ S32x65536.size a) (hoff : off + 8192 ≤ 65536) (r : Fin 32) :
    (∑ k : Fin 8192, View.ld x0 (Rect.unit (s := S32x65536) ![0, off] S32x8192.size inb) (ix2 r k))
      = ∑ k ∈ Finset.range 8192, ext (fun q : Fin 65536 => x0 (ix2 r q)) (off + k) := by
  rw [← window_sum (fun q : Fin 65536 => x0 (ix2 r q)) off 8192 hoff]
  refine Finset.sum_congr rfl fun k _ => ?_
  rw [ld_chunk x0 off inb r k (by have := k.isLt; omega)]

/-- A point's eight chunks add to the product accumulator the row's sum of products over the block. -/
theorem accXY_apply (x0 x1 : Vec Ideal S32x65536 .f32) (acc : Vec Ideal S32x1 .f32) (r : Fin 32) (u : Fin 1) :
    accXY (F := Ideal) x0 x1 acc (ix2 r u) = acc (ix2 r u) + ∑ q : Fin 65536, x0 (ix2 r q) * x1 (ix2 r q) := by
  unfold accXY
  simp only [stepXY_apply]
  rw [chunkXY_sum x0 x1 0 _ (by norm_num) r, chunkXY_sum x0 x1 8192 _ (by norm_num) r, chunkXY_sum x0 x1 16384 _ (by norm_num) r,
    chunkXY_sum x0 x1 24576 _ (by norm_num) r, chunkXY_sum x0 x1 32768 _ (by norm_num) r, chunkXY_sum x0 x1 40960 _ (by norm_num) r,
    chunkXY_sum x0 x1 49152 _ (by norm_num) r, chunkXY_sum x0 x1 57344 _ (by norm_num) r]
  exact eight_chunks _ _

/-- A point's eight chunks add to a plain accumulator the row's sum over the block. -/
theorem accX_apply (x0 : Vec Ideal S32x65536 .f32) (acc : Vec Ideal S32x1 .f32) (r : Fin 32) (u : Fin 1) :
    accX (F := Ideal) x0 acc (ix2 r u) = acc (ix2 r u) + ∑ q : Fin 65536, x0 (ix2 r q) := by
  unfold accX
  simp only [stepX_apply]
  rw [chunk_sum x0 0 _ (by norm_num) r, chunk_sum x0 8192 _ (by norm_num) r, chunk_sum x0 16384 _ (by norm_num) r,
    chunk_sum x0 24576 _ (by norm_num) r, chunk_sum x0 32768 _ (by norm_num) r, chunk_sum x0 40960 _ (by norm_num) r,
    chunk_sum x0 49152 _ (by norm_num) r, chunk_sum x0 57344 _ (by norm_num) r]
  exact eight_chunks _ _

theorem accY_apply (x1 : Vec Ideal S32x65536 .f32) (acc : Vec Ideal S32x1 .f32) (r : Fin 32) (u : Fin 1) :
    accY (F := Ideal) x1 acc (ix2 r u) = acc (ix2 r u) + ∑ q : Fin 65536, x1 (ix2 r q) := by
  unfold accY
  simp only [stepY_apply]
  rw [chunk_sum x1 0 _ (by norm_num) r, chunk_sum x1 8192 _ (by norm_num) r, chunk_sum x1 16384 _ (by norm_num) r,
    chunk_sum x1 24576 _ (by norm_num) r, chunk_sum x1 32768 _ (by norm_num) r, chunk_sum x1 40960 _ (by norm_num) r,
    chunk_sum x1 49152 _ (by norm_num) r, chunk_sum x1 57344 _ (by norm_num) r]
  exact eight_chunks _ _

/-- The zero block holds the zero word's value. -/
theorem zeroBlock_apply (j : S32x1.Idx) : zeroBlock (F := Ideal) j = Ideal.ofBits .f32 0x00000000#32 := rfl

/-- The output block at an index: the determinant from the three sums, its absolute value plus eps, the logarithm,
    subtracted from the zero word. -/
theorem epilogue_apply (sxy sx sy : Vec Ideal S32x1 .f32) (j : S32x1.Idx) :
    epilogue (F := Ideal) sxy sx sy j
      = Ideal.ofBits .f32 0x00000000#32 - Ideal.log (max
          (sxy j * (Ideal.ofBits .f32 0x48800000#32 - sx j - sy j + sxy j) - (sx j - sxy j) * (sy j - sxy j))
          (-(sxy j * (Ideal.ofBits .f32 0x48800000#32 - sx j - sy j + sxy j) - (sx j - sxy j) * (sy j - sxy j)))
          + Ideal.ofBits .f32 0x3A83126F#32) := rfl

end Cert.KernelIdeal.KV
end
-- ==== Proof.Spec.lean ====
/-
  The mathematics both programs compute, stated once, over the two argument arrays read as 64 rows of 262144 pixels
  (the row-major flattening of the trailing [1, 512, 512] axes).

  Per row b, with pixel values x_p and y_p:
    * the kernel accumulates the three sums  S_xy = sum x_p y_p,  S_x = sum x_p,  S_y = sum y_p  and forms
        detK = S_xy (N - S_x - S_y + S_xy) - (S_x - S_xy)(S_y - S_xy),      N = 262144;
    * the reference forms the 2x2 matrix of the four sums of products of (x_p, 1 - x_p) with (y_p, 1 - y_p),
        m00 = sum x_p y_p,  m01 = sum x_p (1 - y_p),  m10 = sum (1 - x_p) y_p,  m11 = sum (1 - x_p)(1 - y_p),
      and its determinant  detR = m00 m11 - m01 m10.
  Both then return the mean over the 64 rows of  -log(|det| + eps).
  For real (finite) pixel values  m01 = S_x - S_xy,  m10 = S_y - S_xy,  m11 = N - S_x - S_y + S_xy,  so detK = detR.
-/
import Idealize.ShloMosaic.PureOps.Ideal
import Idealize.ShloMosaic.Lib.ValueIdx

noncomputable section

open scoped BigOperators

namespace Cert.DetLoss

open Idealize.ShloMosaic Idealize.ShloMosaic.ValueIdx

/-- 64 rows of 262144 pixels. -/
abbrev Rows : Type := Fin 64 → Fin 262144 → EReal

/-- The argument arrays' shape. -/
abbrev SArg : Shape := ⟨4, ![64, 1, 512, 512]⟩

/-- An argument array read as rows of pixels: pixel p of row b is the entry (b, 0, p / 512, p % 512). -/
def rows (X : SArg.Idx → EReal) : Rows := fun b p =>
  X (ix4 b (0 : Fin 1) (⟨p.val / 512, by omega⟩ : Fin 512) (⟨p.val % 512, by omega⟩ : Fin 512))

/-- The float words the two programs share, as the extended reals they denote. -/
def zero : EReal := Ideal.ofBits .f32 0x00000000#32
def one : EReal := Ideal.ofBits .f32 0x3F800000#32
def eps : EReal := Ideal.ofBits .f32 0x3A83126F#32
def pixels : EReal := Ideal.ofBits .f32 0x48800000#32
def batch : EReal := Ideal.ofBits .f32 0x42800000#32

/-- The three row sums the kernel accumulates. -/
def sumXY (x y : Rows) (b : Fin 64) : EReal := ∑ p, x b p * y b p
def sumX (x : Rows) (b : Fin 64) : EReal := ∑ p, x b p

/-- The kernel's determinant of row b, from the three sums. -/
def detK (x y : Rows) (b : Fin 64) : EReal :=
  sumXY x y b * (pixels - sumX x b - sumX y b + sumXY x y b)
    - (sumX x b - sumXY x y b) * (sumX y b - sumXY x y b)

/-- The reference's 2x2 matrix of row b. -/
def m00 (x y : Rows) (b : Fin 64) : EReal := ∑ p, x b p * y b p
def m01 (x y : Rows) (b : Fin 64) : EReal := ∑ p, x b p * (one - y b p)
def m10 (x y : Rows) (b : Fin 64) : EReal := ∑ p, (one - x b p) * y b p
def m11 (x y : Rows) (b : Fin 64) : EReal := ∑ p, (one - x b p) * (one - y b p)

/-- Its determinant. -/
def detR (x y : Rows) (b : Fin 64) : EReal := m00 x y b * m11 x y b - m01 x y b * m10 x y b

/-- The mean over the 64 rows of -log(|D b| + eps): the sum starts from the zero word and is divided by 64. -/
def loss (D : Fin 64 → EReal) : EReal :=
  Ideal.div (zero + ∑ b, -(Ideal.log (max (D b) (-(D b)) + eps))) batch

end Cert.DetLoss

end
-- ==== Proof.KGrid.lean ====
/-
  The kernel's [64, 1] result array, read off the grid.

  The grid has eight points: two row blocks of 32 rows, four column blocks of 65536 pixels each; point t is row block
  t / 4 and column block t % 4. The three [32, 1] accumulators are carried from point to point. By induction along the
  grid, after point t row r of the accumulators holds, from the zero word, the sums of the row's three summands
  (x y, x, y) over the column blocks 0 .. t % 4 of row 32 (t / 4) + r: the first point of a row block starts from the
  zero block, every other point adds its block's row sums to what the point before left. At the last point of a row block
  (t % 4 = 3) the sums run over all 262144 pixels and the output block stored there is the epilogue of the three; these
  two points (3 and 7) are the ones written back, and their blocks, rows 0..31 and 32..63, cover the result array.
-/
import proofs.«153985_j17600775979806_2_alg».proof.Proof.KIdeal
import proofs.«153985_j17600775979806_2_alg».proof.Proof.Spec
import Idealize.ShloMosaic.Lib.Pipeline.Value

noncomputable section
open scoped BigOperators
open Idealize.ShloMosaic Idealize.ShloMosaic.TcCoe Idealize.SL.Sem Idealize.ShloMosaic.ValueIdx
open Idealize.ShloMosaic.Pipeline (Dat)

namespace Cert.KernelIdeal.KV
open Cert.KernelIdeal Cert.KernelIdeal.Gen

variable (m : (ℓ : Loc nD τ sig) → Buf (Elt Ideal) ℓ) (ρ : Dev nD → PrngReg)

/-- The two flattened [64, 262144] arrays as the region finds them. -/
abbrev XA (c : Dev nD) : S64x262144.Idx → EReal := V m c main_v0
abbrev YA (c : Dev nD) : S64x262144.Idx → EReal := V m c main_v1

/-- The grid is (row block, column block), row-major: point t is row block t / 4, column block t % 4; the output's block
    index is (t / 4, 0). Decided over the eight points. -/
theorem idx_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = 0 :=
  (by decide +kernel : ∀ t : Fin grid0.N, _)

/-- The row of the [64, ·] arrays that row r of point n's blocks is. -/
def rowOf (n : ℕ) (r : Fin 32) : Fin 64 := ⟨(32 * (n / 4) + r.val) % 64, Nat.mod_lt _ (by norm_num)⟩

/-- The two inputs' blocks at point t, at their literal type. -/
def blk0 (c : Dev nD) (t : Fin cfg0.N) : Vec Ideal S32x65536 .f32 := iblk m c 0 t
def blk1 (c : Dev nD) (t : Fin cfg0.N) : Vec Ideal S32x65536 .f32 := iblk m c 1 t

/-- Entry (r, q) of the first input's block at point t is entry (32 (t / 4) + r, 65536 (t % 4) + q) of the array. -/
theorem iblk0_apply (c : Dev nD) (t : Fin cfg0.N) (r : Fin 32) (q : Fin 65536) (hp : 65536 * (t.val % 4) + q.val < 262144) :
    blk0 m c t (ix2 r q) = XA m c (ix2 (rowOf t.val r) (⟨65536 * (t.val % 4) + q.val, hp⟩ : Fin 262144)) := by
  obtain ⟨e0, e1, -⟩ := idx_facts t
  have hN : t.val < 8 := lt_of_lt_of_eq t.isLt (show cfg0.N = 8 from N_0)
  unfold blk0 iblk
  rw [View.read_apply]
  show V m c main_v0 _ = V m c main_v0 _
  refine congrArg (V m c main_v0) (funext fun a => Fin.ext ?_)
  match a with
  | ⟨0, _⟩ => show win0_0.index t (0 : Fin 2) * 32 + 1 * r.val = (32 * (t.val / 4) + r.val) % 64; rw [e0]; have := r.isLt; omega
  | ⟨1, _⟩ => show win0_0.index t (1 : Fin 2) * 65536 + 1 * q.val = 65536 * (t.val % 4) + q.val; rw [e1]; omega

theorem iblk1_apply (c : Dev nD) (t : Fin cfg0.N) (r : Fin 32) (q : Fin 65536) (hp : 65536 * (t.val % 4) + q.val < 262144) :
    blk1 m c t (ix2 r q) = YA m c (ix2 (rowOf t.val r) (⟨65536 * (t.val % 4) + q.val, hp⟩ : Fin 262144)) := by
  obtain ⟨-, -, e0, e1, -⟩ := idx_facts t
  have hN : t.val < 8 := lt_of_lt_of_eq t.isLt (show cfg0.N = 8 from N_0)
  unfold blk1 iblk
  rw [View.read_apply]
  show V m c main_v1 _ = V m c main_v1 _
  refine congrArg (V m c main_v1) (funext fun a => Fin.ext ?_)
  match a with
  | ⟨0, _⟩ => show win0_1.index t (0 : Fin 2) * 32 + 1 * r.val = (32 * (t.val / 4) + r.val) % 64; rw [e0]; have := r.isLt; omega
  | ⟨1, _⟩ => show win0_1.index t (1 : Fin 2) * 65536 + 1 * q.val = 65536 * (t.val % 4) + q.val; rw [e1]; omega

/-- The three summands of row b, as functions of the pixel. -/
def gXY (c : Dev nD) (b : Fin 64) : Fin 262144 → EReal := fun p => XA m c (ix2 b p) * YA m c (ix2 b p)
def gX (c : Dev nD) (b : Fin 64) : Fin 262144 → EReal := fun p => XA m c (ix2 b p)
def gY (c : Dev nD) (b : Fin 64) : Fin 262144 → EReal := fun p => YA m c (ix2 b p)

/-- The running sum over the first k column blocks, from the zero word. -/
def part (g : Fin 262144 → EReal) (k : ℕ) : EReal := Ideal.ofBits .f32 0x00000000#32 + ∑ p ∈ Finset.range (65536 * k), ext g p

theorem part_succ (g : Fin 262144 → EReal) (k : ℕ) :
    part g k + (∑ q ∈ Finset.range 65536, ext g (65536 * k + q)) = part g (k + 1) := by
  unfold part
  rw [Nat.mul_succ, Finset.sum_range_add, add_assoc]

theorem part_first (g : Fin 262144 → EReal) :
    Ideal.ofBits .f32 0x00000000#32 + (∑ q ∈ Finset.range 65536, ext g (65536 * 0 + q)) = part g 1 := by
  unfold part
  simp only [Nat.mul_zero, Nat.zero_add, Nat.mul_one]

theorem part_four (g : Fin 262144 → EReal) : part g 4 = ∑ p : Fin 262144, g p := by
  unfold part
  rw [Ideal.ofBits_zero_f32, zero_add, sum_eq_range]

/-- The block sums at point t are windows of the row's sum. -/
theorem blockXY_sum (c : Dev nD) (t : Fin cfg0.N) (r : Fin 32) :
    (∑ q : Fin 65536, blk0 m c t (ix2 r q) * blk1 m c t (ix2 r q))
      = ∑ q ∈ Finset.range 65536, ext (gXY m c (rowOf t.val r)) (65536 * (t.val % 4) + q) := by
  have hN : t.val < 8 := lt_of_lt_of_eq t.isLt (show cfg0.N = 8 from N_0)
  rw [← window_sum (gXY m c (rowOf t.val r)) (65536 * (t.val % 4)) 65536 (by omega)]
  refine Finset.sum_congr rfl fun q _ => ?_
  rw [iblk0_apply m c t r q (by have := q.isLt; omega), iblk1_apply m c t r q (by have := q.isLt; omega)]
  rfl

theorem blockX_sum (c : Dev nD) (t : Fin cfg0.N) (r : Fin 32) :
    (∑ q : Fin 65536, blk0 m c t (ix2 r q))
      = ∑ q ∈ Finset.range 65536, ext (gX m c (rowOf t.val r)) (65536 * (t.val % 4) + q) := by
  have hN : t.val < 8 := lt_of_lt_of_eq t.isLt (show cfg0.N = 8 from N_0)
  rw [← window_sum (gX m c (rowOf t.val r)) (65536 * (t.val % 4)) 65536 (by omega)]
  refine Finset.sum_congr rfl fun q _ => ?_
  rw [iblk0_apply m c t r q (by have := q.isLt; omega)]
  rfl

theorem blockY_sum (c : Dev nD) (t : Fin cfg0.N) (r : Fin 32) :
    (∑ q : Fin 65536, blk1 m c t (ix2 r q))
      = ∑ q ∈ Finset.range 65536, ext (gY m c (rowOf t.val r)) (65536 * (t.val % 4) + q) := by
  have hN : t.val < 8 := lt_of_lt_of_eq t.isLt (show cfg0.N = 8 from N_0)
  rw [← window_sum (gY m c (rowOf t.val r)) (65536 * (t.val % 4)) 65536 (by omega)]
  refine Finset.sum_congr rfl fun q _ => ?_
  rw [iblk1_apply m c t r q (by have := q.isLt; omega)]
  rfl

/-- What the three accumulators hold after point n: row r holds the running sums of the row's three summands over the
    column blocks met so far in this row block. -/
def Inv (c : Dev nD) (n : ℕ) (hn : n < cfg0.N) : Prop := ∀ (r : Fin 32) (u : Fin 1),
  (outsAt0 m c n hn).2.1 (ix2 r u) = part (gXY m c (rowOf n r)) (n % 4 + 1)
  ∧ (outsAt0 m c n hn).2.2.1 (ix2 r u) = part (gX m c (rowOf n r)) (n % 4 + 1)
  ∧ (outsAt0 m c n hn).2.2.2 (ix2 r u) = part (gY m c (rowOf n r)) (n % 4 + 1)

/-- At the first point of a row block the accumulators start from zero. -/
theorem inv_A (c : Dev nD) (t : Fin cfg0.N) (h0 : t.val % 4 = 0) : Inv m c t.val t.isLt := by
  have hN : t.val < 8 := lt_of_lt_of_eq t.isLt (show cfg0.N = 8 from N_0)
  have h1 : ¬t.val % 4 = 3 := by omega
  intro r u
  rw [outsAt0_A m c t h0 h1]
  dsimp only
  have hc0 : cond0_0 (grid0.coords t) := (hcond0_0 t).mpr h0
  have hc1 : ¬cond0_1 (grid0.coords t) := fun h => h1 ((hcond0_1 t).mp h)
  refine ⟨?_, ?_, ?_⟩
  · refine (congrFun (sXY_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t)) (ix2 r u)).trans ?_
    refine (accXY_apply (blk0 m c t) (blk1 m c t) zeroBlock r u).trans ?_
    rw [zeroBlock_apply, blockXY_sum, h0]; exact part_first _
  · refine (congrFun (sX_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t)) (ix2 r u)).trans ?_
    refine (accX_apply (blk0 m c t) zeroBlock r u).trans ?_
    rw [zeroBlock_apply, blockX_sum, h0]; exact part_first _
  · refine (congrFun (sY_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t)) (ix2 r u)).trans ?_
    refine (accY_apply (blk1 m c t) zeroBlock r u).trans ?_
    rw [zeroBlock_apply, blockY_sum, h0]; exact part_first _

/-- At any other point they continue from what the point before left: same row block, one more column block. -/
theorem inv_BC (c : Dev nD) (t : Fin cfg0.N) (h0 : ¬t.val % 4 = 0)
    (ih : Inv m c (t.val - 1) (Nat.lt_of_le_of_lt (Nat.sub_le _ _) t.isLt)) : Inv m c t.val t.isLt := by
  have hN : t.val < 8 := lt_of_lt_of_eq t.isLt (show cfg0.N = 8 from N_0)
  have hk : (t.val - 1) % 4 + 1 = t.val % 4 := by omega
  have hrow : ∀ r : Fin 32, rowOf (t.val - 1) r = rowOf t.val r := fun r => Fin.ext (by
    show (32 * ((t.val - 1) / 4) + r.val) % 64 = (32 * (t.val / 4) + r.val) % 64
    have : (t.val - 1) / 4 = t.val / 4 := by omega
    rw [this])
  have hc0 : ¬cond0_0 (grid0.coords t) := fun h => h0 ((hcond0_0 t).mp h)
  intro r u
  obtain ⟨i0, i1, i2⟩ := ih r u
  rw [hrow, hk] at i0 i1 i2
  by_cases h1 : t.val % 4 = 3
  · have hc1 : cond0_1 (grid0.coords t) := (hcond0_1 t).mpr h1
    rw [outsAt0_C m c t h0 h1]
    dsimp only
    refine ⟨?_, ?_, ?_⟩
    · refine (congrFun (sXY_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r u)).trans ?_
      refine (accXY_apply (blk0 m c t) (blk1 m c t) _ r u).trans ?_
      rw [i0, blockXY_sum]; exact part_succ _ _
    · refine (congrFun (sX_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r u)).trans ?_
      refine (accX_apply (blk0 m c t) _ r u).trans ?_
      rw [i1, blockX_sum]; exact part_succ _ _
    · refine (congrFun (sY_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r u)).trans ?_
      refine (accY_apply (blk1 m c t) _ r u).trans ?_
      rw [i2, blockY_sum]; exact part_succ _ _
  · have hc1 : ¬cond0_1 (grid0.coords t) := fun h => h1 ((hcond0_1 t).mp h)
    rw [outsAt0_B m c t h0 h1]
    dsimp only
    refine ⟨?_, ?_, ?_⟩
    · refine (congrFun (sXY_B (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r u)).trans ?_
      refine (accXY_apply (blk0 m c t) (blk1 m c t) _ r u).trans ?_
      rw [i0, blockXY_sum]; exact part_succ _ _
    · refine (congrFun (sX_B (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r u)).trans ?_
      refine (accX_apply (blk0 m c t) _ r u).trans ?_
      rw [i1, blockX_sum]; exact part_succ _ _
    · refine (congrFun (sY_B (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r u)).trans ?_
      refine (accY_apply (blk1 m c t) _ r u).trans ?_
      rw [i2, blockY_sum]; exact part_succ _ _

/-- So at every point, by induction along the grid. -/
theorem inv (c : Dev nD) : ∀ (n : ℕ) (hn : n < cfg0.N), Inv m c n hn
  | 0, hn => inv_A m c ⟨0, hn⟩ rfl
  | n + 1, hn => by
    by_cases h0 : (n + 1) % 4 = 0
    · exact inv_A m c ⟨n + 1, hn⟩ h0
    · exact inv_BC m c ⟨n + 1, hn⟩ h0 (inv c n (Nat.lt_of_succ_lt hn))

/-- At the last point of a row block the output block is the epilogue of the three accumulators as that point leaves them. -/
theorem out_eq (c : Dev nD) (t : Fin cfg0.N) (h0 : ¬t.val % 4 = 0) (h1 : t.val % 4 = 3) :
    (outsAt0 m c t.val t.isLt).1
      = epilogue (outsAt0 m c t.val t.isLt).2.1 (outsAt0 m c t.val t.isLt).2.2.1 (outsAt0 m c t.val t.isLt).2.2.2 := by
  have hc0 : ¬cond0_0 (grid0.coords t) := fun h => h0 ((hcond0_0 t).mp h)
  have hc1 : cond0_1 (grid0.coords t) := (hcond0_1 t).mpr h1
  rw [outsAt0_C m c t h0 h1]
  dsimp only
  rw [out_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sXY_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sX_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sY_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) hc0 hc1 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

/-- What the kernel leaves for row b of the result: from the row's three sums S_xy, S_x, S_y over all 262144 pixels,
    0 - log(|S_xy (N - S_x - S_y + S_xy) - (S_x - S_xy)(S_y - S_xy)| + eps). -/
def rowVal (c : Dev nD) (b : Fin 64) : EReal :=
  Ideal.ofBits .f32 0x00000000#32 - Ideal.log (max
    ((∑ p, gXY m c b p) * (Ideal.ofBits .f32 0x48800000#32 - (∑ p, gX m c b p) - (∑ p, gY m c b p) + (∑ p, gXY m c b p))
      - ((∑ p, gX m c b p) - (∑ p, gXY m c b p)) * ((∑ p, gY m c b p) - (∑ p, gXY m c b p)))
    (-((∑ p, gXY m c b p) * (Ideal.ofBits .f32 0x48800000#32 - (∑ p, gX m c b p) - (∑ p, gY m c b p) + (∑ p, gXY m c b p))
      - ((∑ p, gX m c b p) - (∑ p, gXY m c b p)) * ((∑ p, gY m c b p) - (∑ p, gXY m c b p))))
    + Ideal.ofBits .f32 0x3A83126F#32)

/-- The output block's row r at the last point of a row block. -/
theorem out_at (c : Dev nD) (t : Fin cfg0.N) (h0 : ¬t.val % 4 = 0) (h1 : t.val % 4 = 3) (r : Fin 32) (u : Fin 1) :
    (outsAt0 m c t.val t.isLt).1 (ix2 r u) = rowVal m c (rowOf t.val r) := by
  obtain ⟨i0, i1, i2⟩ := inv m c t.val t.isLt r u
  rw [out_eq m c t h0 h1, epilogue_apply, i0, i1, i2, h1, part_four, part_four, part_four]
  rfl

/-- The [64, 1] result array: row b holds rowVal b. -/
def G (c : Dev nD) : S64x1.Idx → EReal := fun j => rowVal m c (j 0)

/-- What a flushing point writes back is its block of G. -/
theorem flushed_eq (c : Dev nD) (t : Fin cfg0.N) (hf : (cfg0.win 2).flush t = true) :
    (dats m 0 c).flushed 2 t = ((cfg0.win 2).blk t).view.read (Elt Ideal) (G m c) := by
  have h1 : t.val % 4 = 3 := (flush0_2 t).mp hf
  have h0 : ¬t.val % 4 = 0 := by omega
  have hN : t.val < 8 := lt_of_lt_of_eq t.isLt (show cfg0.N = 8 from N_0)
  obtain ⟨-, -, -, -, e0, e1⟩ := idx_facts t
  show (cfg0.win 2).cut (grid0.coords t) ((dats m 0 c).after 2 t) = _
  rw [after0_2]
  funext j
  obtain ⟨r, u, rfl⟩ : ∃ (r : Fin 32) (u : Fin 1), j = ix2 r u := ⟨j 0, j 1, eq_ix2 j⟩
  show (outsAt0 m c t.val t.isLt).1 (ix2 r u) = G m c (((cfg0.win 2).blk t).view.emb (ix2 r u))
  rw [out_at m c t h0 h1 r u]
  show rowVal m c (rowOf t.val r) = rowVal m c ((((cfg0.win 2).blk t).view.emb (ix2 r u)) 0)
  refine congrArg (rowVal m c) (Fin.ext ?_)
  show (32 * (t.val / 4) + r.val) % 64 = win0_2.index t (0 : Fin 2) * 32 + 1 * r.val
  rw [e0]; have := r.isLt; omega

/-- An index of the result is in point t's block iff each coordinate is in the block's range. -/
theorem mem_blk (t : Fin cfg0.N) (i : S64x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v2).slice (win0_2.rect t)).set ↔ _
  rw [View.set_slice_whole, Rect.mem_set_unit]
  exact Iff.rfl

/-- The two flushing points (3 and 7) cover the result: row b is in the block of point 4 (b / 32) + 3. -/
theorem final (c : Dev nD) : (dats m 0 c).arrAt 2 cfg0.N = G m c :=
  (dats m 0 c).arrAt_eq_of_cover 2 (G m c) (fun t hf => flushed_eq m c t hf) fun i => by
    have hi0 : (i 0).val < 64 := (i 0).isLt
    have hi1 : (i 1).val < 1 := (i 1).isLt
    let t : Fin cfg0.N := ⟨4 * ((i 0).val / 32) + 3, by rw [show cfg0.N = 8 from N_0]; omega⟩
    have ht : t.val = 4 * ((i 0).val / 32) + 3 := rfl
    obtain ⟨-, -, -, -, e0, e1⟩ := idx_facts t
    refine ⟨t, (flush0_2 t).mpr (by rw [ht]; omega), ?_⟩
    rw [mem_blk]
    intro a
    match a with
    | ⟨0, _⟩ => show win0_2.index t (0 : Fin 2) * 32 ≤ (i 0).val ∧ (i 0).val < win0_2.index t (0 : Fin 2) * 32 + 32; rw [e0, ht]; omega
    | ⟨1, _⟩ => show win0_2.index t (1 : Fin 2) * 1 ≤ (i 1).val ∧ (i 1).val < win0_2.index t (1 : Fin 2) * 1 + 1; rw [e1]; omega

end Cert.KernelIdeal.KV
end
-- ==== Proof.KTail.lean ====
/-
  The kernel's scalar result.

  After the region the program sums the [64, 1] result array over both axes from the zero word and divides by 64. The
  array's row b holds 0 - log(|detK b| + eps), and 0 - t = -t on the extended reals, so the result is the mean over
  the rows of -log(|detK b| + eps): the specification's loss of the kernel's determinant. The two [64, 262144] arrays the
  kernel reads are the reshapes of the arguments: entry (b, p) is the argument's entry (b, 0, p / 512, p % 512), the same
  row-major position.
-/
import proofs.«153985_j17600775979806_2_alg».proof.Proof.KGrid
import Idealize.ShloMosaic.Lib.StableHlo.Run
import Idealize.ShloMosaic.Lib.IdealHost
import Idealize.ShloMosaic.Lib.Tactic

noncomputable section
open scoped BigOperators
open Idealize.ShloMosaic Idealize.ShloMosaic.TcCoe Idealize.SL.Sem Idealize.ShloMosaic.ValueIdx
open Idealize.ShloMosaic.Pipeline (Dat)

namespace Cert.KernelIdeal.KV
open Cert.KernelIdeal Cert.KernelIdeal.Gen

variable (m : (ℓ : Loc nD τ sig) → Buf (Elt Ideal) ℓ) (ρ : Dev nD → PrngReg)

/-- The program's scalar result as the run leaves it: the four host operations after the region over the result array. -/
def outK (c : Dev nD) : S_.Idx → EReal := Pipeline.afterTail₀ cfgs (dats m) 0 (V0 m) [hostOps1] c main_v4

/-- It is the sum of the result array's rows from the zero word, divided by the word 64.0. -/
theorem tail_v4 (c : Dev nD) : outK m c = fun _ =>
    Ideal.div (Ideal.ofBits .f32 0x00000000#32 + ∑ b : Fin 64, rowVal m c b) (Ideal.ofBits .f32 0x42800000#32) := by
  unfold outK Pipeline.afterTail₀
  simp only [List.flatten_cons, List.flatten_nil, List.append_nil]
  after_results
  have e : Pipeline.withArrays (cfgs 0).spec c (V0 m c) (fun w => (dats m 0 c).arrAt w (cfgs 0).N) (Proc.devRef .tc main_v2) = G m c :=
    (Pipeline.withArrays_arr spec0 launch0.win.arr_inj c _ _ 2).trans (final m c)
  rw [e]
  funext j
  show Ideal.div (Ideal.hostReduceAdd reducesTo_S64x1_S_d0_1 (G m c) (Ideal.ofBits .f32 0x00000000#32) j) (Ideal.ofBits .f32 0x42800000#32) = _
  rw [Ideal.hostReduceAdd_total reducesTo_S64x1_S_d0_1 (fun b => b.elim0) (G m c) _ j, sum_idx2]
  simp only [Fin.sum_univ_one]
  rfl

/-- The arrays the kernel reads are the arguments reshaped. -/
theorem V_main_v0 (c : Dev nD) : XA m c = shapeCast S64x262144 (m ((c : Thread nD τ).loc main_arg0)) shapeCasts_S64x1x512x512_S64x262144 := by
  show StableHlo.after hostOps0 (fun b => m (c, b)) (Proc.devRef .tc main_v0) = _
  after_results
  rfl

theorem V_main_v1 (c : Dev nD) : YA m c = shapeCast S64x262144 (m ((c : Thread nD τ).loc main_arg1)) shapeCasts_S64x1x512x512_S64x262144 := by
  show StableHlo.after hostOps0 (fun b => m (c, b)) (Proc.devRef .tc main_v1) = _
  after_results
  rfl

/-- Entry (b, p) of a reshaped argument is pixel p of row b. -/
theorem reshape_rows (X : S64x1x512x512.Idx → EReal) (b : Fin 64) (p : Fin 262144) :
    shapeCast S64x262144 X shapeCasts_S64x1x512x512_S64x262144 (ix2 b p) = Cert.DetLoss.rows X b p := by
  unfold Cert.DetLoss.rows
  refine shapeCast_apply X _ _ _ ?_
  rw [Shape.rowMajor_val_four, Shape.rowMajor_val_two]
  show (((b.val * 1 + 0) * 512 + p.val / 512) * 512 + p.val % 512) = b.val * 262144 + p.val
  omega

theorem XA_rows (c : Dev nD) (b : Fin 64) (p : Fin 262144) : XA m c (ix2 b p) = Cert.DetLoss.rows (m ((c : Thread nD τ).loc main_arg0)) b p := by
  rw [V_main_v0]; exact reshape_rows _ b p

theorem YA_rows (c : Dev nD) (b : Fin 64) (p : Fin 262144) : YA m c (ix2 b p) = Cert.DetLoss.rows (m ((c : Thread nD τ).loc main_arg1)) b p := by
  rw [V_main_v1]; exact reshape_rows _ b p

/-- A row of the result array, in the specification's words. -/
theorem rowVal_eq (c : Dev nD) (b : Fin 64) :
    rowVal m c b = -(Ideal.log (max (Cert.DetLoss.detK (Cert.DetLoss.rows (m ((c : Thread nD τ).loc main_arg0))) (Cert.DetLoss.rows (m ((c : Thread nD τ).loc main_arg1))) b)
      (-(Cert.DetLoss.detK (Cert.DetLoss.rows (m ((c : Thread nD τ).loc main_arg0))) (Cert.DetLoss.rows (m ((c : Thread nD τ).loc main_arg1))) b)) + Cert.DetLoss.eps)) := by
  have eXY : (∑ p, gXY m c b p) = Cert.DetLoss.sumXY (Cert.DetLoss.rows (m ((c : Thread nD τ).loc main_arg0))) (Cert.DetLoss.rows (m ((c : Thread nD τ).loc main_arg1))) b :=
    Finset.sum_congr rfl fun p _ => by unfold gXY; rw [XA_rows, YA_rows]
  have eX : (∑ p, gX m c b p) = Cert.DetLoss.sumX (Cert.DetLoss.rows (m ((c : Thread nD τ).loc main_arg0))) b :=
    Finset.sum_congr rfl fun p _ => by unfold gX; rw [XA_rows]
  have eY : (∑ p, gY m c b p) = Cert.DetLoss.sumX (Cert.DetLoss.rows (m ((c : Thread nD τ).loc main_arg1))) b :=
    Finset.sum_congr rfl fun p _ => by unfold gY; rw [YA_rows]
  unfold rowVal
  rw [eXY, eX, eY, Ideal.ofBits_zero_f32, zero_sub]
  rfl

/-- The kernel's result is the specification's loss of the kernel's determinant of the arguments' rows. -/
theorem outK_eq (c : Dev nD) : outK m c = fun _ =>
    Cert.DetLoss.loss (Cert.DetLoss.detK (Cert.DetLoss.rows (m ((c : Thread nD τ).loc main_arg0))) (Cert.DetLoss.rows (m ((c : Thread nD τ).loc main_arg1)))) := by
  rw [tail_v4]
  funext _
  unfold Cert.DetLoss.loss
  simp only [rowVal_eq]
  rfl

/-- The kernel's run, read: the result at outK, the arguments unchanged. -/
theorem run : θ_run defs (onTc (τ := τ) (main (F := Ideal))) ⟨m, fun _ => 0, ρ⟩ fun r => ∀ c : Dev nD,
      r.2.mem ((c.tc : Thread nD τ).loc main_v4) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).2 main_v4 (Pipeline.mem_restRefs_of main_v4 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KV
end
-- ==== Proof.Algebra.lean ====
/-
  The two determinants agree on real pixel values.

  For a row with real pixels x_p, y_p (p over the 262144 pixels) write A = sum x_p y_p, B = sum x_p, C = sum y_p. Then
      sum x_p (1 - y_p) = B - A,   sum (1 - x_p) y_p = C - A,   sum (1 - x_p)(1 - y_p) = 262144 - B - C + A,
  so the reference's  m00 m11 - m01 m10  is the kernel's  A (262144 - B - C + A) - (B - A)(C - A).
  The identities are distributive laws, which hold for reals but not at the infinities of the extended reals: this is
  where the finiteness of the inputs is used. The words 1.0 and 262144.0 denote the reals 1 and 262144.
-/
import proofs.«153985_j17600775979806_2_alg».proof.Proof.Spec

noncomputable section

open scoped BigOperators

namespace Cert.DetLoss

open Idealize.ShloMosaic

/-- The word 0.0 denotes 0. -/
theorem zero_eq : zero = 0 := by
  unfold zero; simp [Ideal.ofBits, Ideal.ieee]

/-- The word 1.0 denotes the real 1. -/
theorem one_eq : one = ((1 : ℝ) : EReal) := by
  unfold one; simp [Ideal.ofBits, Ideal.ieee, -EReal.coe_mul]; norm_num

/-- The word 262144.0 denotes the real 262144. -/
theorem pixels_eq : pixels = ((262144 : ℝ) : EReal) := by
  unfold pixels; simp [Ideal.ofBits, Ideal.ieee, -EReal.coe_mul]; norm_num

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The three real identities. -/
theorem real_m01 (x y : Fin 262144 → ℝ) : (∑ p, x p * (1 - y p)) = (∑ p, x p) - ∑ p, x p * y p := by
  simp only [mul_sub, mul_one, Finset.sum_sub_distrib]
theorem real_m10 (x y : Fin 262144 → ℝ) : (∑ p, (1 - x p) * y p) = (∑ p, y p) - ∑ p, x p * y p := by
  simp only [sub_mul, one_mul, Finset.sum_sub_distrib]
theorem real_m11 (x y : Fin 262144 → ℝ) :
    (∑ p, (1 - x p) * (1 - y p)) = 262144 - (∑ p, x p) - (∑ p, y p) + ∑ p, x p * y p := by
  have e : ∀ p, (1 - x p) * (1 - y p) = 1 - x p - y p + x p * y p := fun p => by ring
  simp only [e, Finset.sum_add_distrib, Finset.sum_sub_distrib, Finset.sum_const, Finset.card_univ, Fintype.card_fin,
    nsmul_eq_mul, mul_one]
  norm_num

/-- On real pixel values the kernel's determinant of a row is the reference's. -/
theorem detK_eq_detR (x y : Rows) (hx : ∀ b p, ∃ r : ℝ, x b p = (r : EReal)) (hy : ∀ b p, ∃ r : ℝ, y b p = (r : EReal))
    (b : Fin 64) : detK x y b = detR x y b := by
  choose xr hxr using hx
  choose yr hyr using hy
  have eXY : sumXY x y b = ((∑ p, xr b p * yr b p : ℝ) : EReal) := by
    unfold sumXY; rw [coe_sum]; exact Finset.sum_congr rfl fun p _ => by rw [hxr, hyr, EReal.coe_mul]
  have eX : sumX x b = ((∑ p, xr b p : ℝ) : EReal) := by
    unfold sumX; rw [coe_sum]; exact Finset.sum_congr rfl fun p _ => hxr b p
  have eY : sumX y b = ((∑ p, yr b p : ℝ) : EReal) := by
    unfold sumX; rw [coe_sum]; exact Finset.sum_congr rfl fun p _ => hyr b p
  have e00 : m00 x y b = ((∑ p, xr b p * yr b p : ℝ) : EReal) := eXY
  have e01 : m01 x y b = ((∑ p, xr b p * (1 - yr b p) : ℝ) : EReal) := by
    unfold m01; rw [coe_sum]; exact Finset.sum_congr rfl fun p _ => by rw [hxr, hyr, one_eq, ← EReal.coe_sub, ← EReal.coe_mul]
  have e10 : m10 x y b = ((∑ p, (1 - xr b p) * yr b p : ℝ) : EReal) := by
    unfold m10; rw [coe_sum]; exact Finset.sum_congr rfl fun p _ => by rw [hxr, hyr, one_eq, ← EReal.coe_sub, ← EReal.coe_mul]
  have e11 : m11 x y b = ((∑ p, (1 - xr b p) * (1 - yr b p) : ℝ) : EReal) := by
    unfold m11; rw [coe_sum]
    exact Finset.sum_congr rfl fun p _ => by rw [hxr, hyr, one_eq, ← EReal.coe_sub, ← EReal.coe_sub, ← EReal.coe_mul]
  unfold detK detR
  rw [eXY, eX, eY, e00, e01, e10, e11, pixels_eq, real_m11 (xr b) (yr b), real_m01 (xr b) (yr b), real_m10 (xr b) (yr b)]
  simp only [EReal.coe_sub, EReal.coe_add]

end Cert.DetLoss

end
-- ==== Proof.Finite.lean ====
/-
  The precondition, read: every entry of both arguments is a real number.

  The precondition is  all(|input| < +inf) and all(|target| < +inf).  The conjunction being 1 makes both reductions 1;
  a reduction by "and" over every axis that is 1 met a 1 at every entry; an entry's comparison |x| < +inf being 1 says
  max x (-x) is below the top of the extended reals, which excludes both infinities: x is a real.
-/
import proofs.«153985_j17600775979806_2_alg».proof.Pre_finite_inputs
import Idealize.ShloMosaic.Lib.ReduceAll
import Idealize.ShloMosaic.Lib.ValueIdx
import Idealize.ShloMosaic.Lib.IdealHost

noncomputable section

namespace Cert.Finite

open Idealize.ShloMosaic Idealize.ShloMosaic.ValueIdx Cert.Pre_finite_inputs

instance : Subsingleton S_.Idx := ⟨fun a b => funext fun d => d.elim0⟩

/-- The word 0x7F800000 denotes the top of the extended reals. -/
theorem inf_eq : Ideal.ofBits .f32 0x7F800000#32 = ⊤ := by simp [Ideal.ofBits, Ideal.ieee]

/-- An extended real whose absolute value is below the top is a real. -/
theorem real_of_abs_lt_top (x : EReal) (h : max x (-x) < ⊤) : ∃ r : ℝ, x = (r : EReal) := by
  induction x using EReal.rec with
  | bot => simp at h
  | coe r => exact ⟨r, rfl⟩
  | top => simp at h

/-- An entry whose comparison |x| < +inf came out 1 is a real. -/
theorem entry_real [Facts] (X : FVec Ideal S64x1x512x512 .f32) (i : S64x1x512x512.Idx)
    (h : cmpf .olt (Host.absf X) (broadcastInDim S64x1x512x512 ![] Facts.bcast_S_S64x1x512x512 (constant (F := Ideal) S_ .f32 0x7F800000#32)) i = 1#1) :
    ∃ r : ℝ, X i = (r : EReal) := by
  have e : broadcastInDim S64x1x512x512 ![] Facts.bcast_S_S64x1x512x512 (constant (F := Ideal) S_ .f32 0x7F800000#32) i = ⊤ := by
    rw [broadcastInDim_scalar_apply]; exact inf_eq
  have h' : Ideal.cmp .olt (max (X i) (-(X i))) (broadcastInDim S64x1x512x512 ![] Facts.bcast_S_S64x1x512x512 (constant (F := Ideal) S_ .f32 0x7F800000#32) i) = 1#1 := h
  rw [e] at h'
  unfold Ideal.cmp at h'
  refine real_of_abs_lt_top (X i) ?_
  by_contra hn
  simp [hn] at h'

/-- Under the precondition every entry of both arguments is a real. -/
theorem finite_of_pre [Facts] (X Y : FVec Ideal S64x1x512x512 .f32) (h : fn (F := Ideal) X Y = fun _ => 1#1) :
    (∀ i, ∃ r : ℝ, X i = (r : EReal)) ∧ (∀ i, ∃ r : ℝ, Y i = (r : EReal)) := by
  have h0 := congrFun h ix0
  dsimp only [fn] at h0
  obtain ⟨h1, h2⟩ := IntOp.andi_eq_one.1 h0
  exact ⟨fun i => entry_real X i (Host.reduce_andi_all _ _ _ _ _ h1 i), fun i => entry_real Y i (Host.reduce_andi_all _ _ _ _ _ h2 i)⟩

end Cert.Finite

end
-- ==== Proof.RefOps.lean ====
/-
  @main of the reference as the list of its 81 host operations in order, the one call of the determinant function
  and the five calls nested in it replaced by the callee's operations over that call's buffers; the program equals
  the straight line of the list, no buffer or semaphore is scoped, and every operation's buffers are TensorCore buffers.
-/
import proofs.«153985_j17600775979806_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order, the calls unfolded: eleven build the 64 matrices; sixty are the determinant function's
    (its forty-five lines, the five calls' fifteen in their places); ten take the mean of -log(|det| + eps). -/
abbrev ops : List (HloOp τ sig (Elt F)) :=
  [ StableHlo.reshape main_arg0 main_v0 rfl shapeCasts_S64x1x512x512_S64x1x262144,
    StableHlo.nullary main_cst (constant S_ .f32 0x3F800000#32),
    StableHlo.unary main_cst main_v1 (broadcastInDim S64x1x262144 ![] bcast_S_S64x1x262144 : (⟨S_, .f32⟩ : BufTy).Contents (Elt F) → (⟨S64x1x262144, .f32⟩ : BufTy).Contents (Elt F)),
    StableHlo.binary main_v1 main_v0 main_v2 (subf : (⟨S64x1x262144, .f32⟩ : BufTy).Contents (Elt F) → (⟨S64x1x262144, .f32⟩ : BufTy).Contents (Elt F) → (⟨S64x1x262144, .f32⟩ : BufTy).Contents (Elt F)),
    StableHlo.binary main_v0 main_v2 main_v3 ((fun a b => concatenate S64x2x262144 1 [⟨S64x1x262144, a⟩, ⟨S64x1x262144, b⟩] concatenates_S64x1x262144_S64x1x262144_S64x2x262144_d1) : (⟨S64x1x262144, .f32⟩ : BufTy).Contents (Elt F) → (⟨S64x1x262144, .f32⟩ : BufTy).Contents (Elt F) → (⟨S64x2x262144, .f32⟩ : BufTy).Contents (Elt F)),
    StableHlo.reshape main_arg1 main_v4 rfl shapeCasts_S64x1x512x512_S64x1x262144,
    StableHlo.nullary main_cst_0 (constant S_ .f32 0x3F800000#32),
    StableHlo.unary main_cst_0 main_v5 (broadcastInDim S64x1x262144 ![] bcast_S_S64x1x262144 : (⟨S_, .f32⟩ : BufTy).Contents (Elt F) → (⟨S64x1x262144, .f32⟩ : BufTy).Contents (Elt F)),
    StableHlo.binary main_v5 main_v4 main_v6 (subf : (⟨S64x1x262144, .f32⟩ : BufTy).Contents (Elt F) → (⟨S64x1x262144, .f32⟩ : BufTy).Contents (Elt F) → (⟨S64x1x262144, .f32⟩ : BufTy).Contents (Elt F)),
    StableHlo.binary main_v4 main_v6 main_v7 ((fun a b => concatenate S64x2x262144 1 [⟨S64x1x262144, a⟩, ⟨S64x1x262144, b⟩] concatenates_S64x1x262144_S64x1x262144_S64x2x262144_d1) : (⟨S64x1x262144, .f32⟩ : BufTy).Contents (Elt F) → (⟨S64x1x262144, .f32⟩ : BufTy).Contents (Elt F) → (⟨S64x2x262144, .f32⟩ : BufTy).Contents (Elt F)),
    StableHlo.binary main_v3 main_v7 main_v8 ((fun l r => Host.dotGeneral dot_S64x2x262144_S64x2x262144_S64x2x2_2_2_1_1_0_0 none l r) : (⟨S64x2x262144, .f32⟩ : BufTy).Contents (Elt F) → (⟨S64x2x262144, .f32⟩ : BufTy).Contents (Elt F) → (⟨S64x2x2, .f32⟩ : BufTy).Contents (Elt F)),
    StableHlo.TRef.unary (.of main_v8 : TRef sig ⟨S64x2x2, .f32⟩) main_call0.v0 (extractStridedSlice S64x1x1 ![0, 1, 0] · slices_S64x2x2_S64x1x1_0_1_0),
    StableHlo.TRef.reshape main_call0.v0 main_call0.v1 rfl shapeCasts_S64x1x1_S64,
    StableHlo.TRef.unary main_call0.v1 main_call0.v2 Host.absf,
    StableHlo.TRef.unary (.of main_v8 : TRef sig ⟨S64x2x2, .f32⟩) main_call0.v3 (extractStridedSlice S64x1x1 ![0, 0, 0] · slices_S64x2x2_S64x1x1_0_0_0),
    StableHlo.TRef.reshape main_call0.v3 main_call0.v4 rfl shapeCasts_S64x1x1_S64,
    StableHlo.TRef.unary main_call0.v4 main_call0.v5 Host.absf,
    StableHlo.TRef.binary main_call0.v2 main_call0.v5 main_call0.v6 (cmpf .ogt),
    StableHlo.TRef.unary main_call0.v6 main_call0.v7 (broadcastInDim S64x1 ![0] bcast_S64_S64x1_0),
    StableHlo.TRef.unary (.of main_v8 : TRef sig ⟨S64x2x2, .f32⟩) main_call0.v8 (extractStridedSlice S64x1x2 ![0, 1, 0] · slices_S64x2x2_S64x1x2_0_1_0),
    StableHlo.TRef.reshape main_call0.v8 main_call0.v9 rfl shapeCasts_S64x1x2_S64x2,
    StableHlo.TRef.unary (.of main_v8 : TRef sig ⟨S64x2x2, .f32⟩) main_call0.v10 (extractStridedSlice S64x1x2 ![0, 0, 0] · slices_S64x2x2_S64x1x2_0_0_0),
    StableHlo.TRef.reshape main_call0.v10 main_call0.v11 rfl shapeCasts_S64x1x2_S64x2,
    StableHlo.TRef.unary main_call0.v7 main_call0.call0.v0 (broadcastInDim S64x2 ![0, 1] bcast_S64x1_S64x2_0_1),
    StableHlo.TRef.ternary main_call0.call0.v0 main_call0.v9 main_call0.v11 main_call0.call0.v1 select,
    StableHlo.TRef.unary main_call0.v6 main_call0.v13 (broadcastInDim S64x1 ![0] bcast_S64_S64x1_0),
    StableHlo.TRef.unary (.of main_v8 : TRef sig ⟨S64x2x2, .f32⟩) main_call0.v14 (extractStridedSlice S64x1x2 ![0, 0, 0] · slices_S64x2x2_S64x1x2_0_0_0),
    StableHlo.TRef.reshape main_call0.v14 main_call0.v15 rfl shapeCasts_S64x1x2_S64x2,
    StableHlo.TRef.unary (.of main_v8 : TRef sig ⟨S64x2x2, .f32⟩) main_call0.v16 (extractStridedSlice S64x1x2 ![0, 1, 0] · slices_S64x2x2_S64x1x2_0_1_0),
    StableHlo.TRef.reshape main_call0.v16 main_call0.v17 rfl shapeCasts_S64x1x2_S64x2,
    StableHlo.TRef.unary main_call0.v13 main_call0.call1.v0 (broadcastInDim S64x2 ![0, 1] bcast_S64x1_S64x2_0_1),
    StableHlo.TRef.ternary main_call0.call1.v0 main_call0.v15 main_call0.v17 main_call0.call1.v1 select,
    StableHlo.TRef.unary main_call0.call0.v1 main_call0.v19 (extractStridedSlice S64x1 ![0, 0] · slices_S64x2_S64x1_0_0),
    StableHlo.TRef.reshape main_call0.v19 main_call0.v20 rfl shapeCasts_S64x1_S64,
    StableHlo.TRef.nullary main_call0.cst (constant S_ .f32 0x00000000#32),
    StableHlo.TRef.unary main_call0.cst main_call0.v21 (broadcastInDim S64 ![] bcast_S_S64),
    StableHlo.TRef.binary main_call0.v20 main_call0.v21 main_call0.v22 (cmpf .oeq),
    StableHlo.TRef.unary main_call0.call0.v1 main_call0.v23 (extractStridedSlice S64x1 ![0, 0] · slices_S64x2_S64x1_0_0),
    StableHlo.TRef.reshape main_call0.v23 main_call0.v24 rfl shapeCasts_S64x1_S64,
    StableHlo.TRef.nullary main_call0.c (constantI S_ 32 1#32),
    StableHlo.TRef.unary main_call0.c main_call0.call2.v0 (sitofp .f32),
    StableHlo.TRef.unary main_call0.call2.v0 main_call0.call2.v1 (broadcastInDim S64 ![] bcast_S_S64),
    StableHlo.TRef.ternary main_call0.v22 main_call0.call2.v1 main_call0.v24 main_call0.call2.v2 select,
    StableHlo.TRef.unary main_call0.call0.v1 main_call0.v26 (extractStridedSlice S64x1 ![0, 0] · slices_S64x2_S64x1_0_0),
    StableHlo.TRef.reshape main_call0.v26 main_call0.v27 rfl shapeCasts_S64x1_S64,
    StableHlo.TRef.nullary main_call0.cst_0 (constant S_ .f32 0x00000000#32),
    StableHlo.TRef.unary main_call0.cst_0 main_call0.v28 (broadcastInDim S64 ![] bcast_S_S64),
    StableHlo.TRef.binary main_call0.v27 main_call0.v28 main_call0.v29 (cmpf .oeq),
    StableHlo.TRef.unary main_call0.call1.v1 main_call0.v30 (extractStridedSlice S64x1 ![0, 0] · slices_S64x2_S64x1_0_0),
    StableHlo.TRef.reshape main_call0.v30 main_call0.v31 rfl shapeCasts_S64x1_S64,
    StableHlo.TRef.binary main_call0.v31 main_call0.call2.v2 main_call0.v32 Host.divf,
    StableHlo.TRef.nullary main_call0.c_1 (constantI S_ 32 0#32),
    StableHlo.TRef.unary main_call0.c_1 main_call0.call3.v0 (sitofp .f32),
    StableHlo.TRef.unary main_call0.call3.v0 main_call0.call3.v1 (broadcastInDim S64 ![] bcast_S_S64),
    StableHlo.TRef.ternary main_call0.v29 main_call0.call3.v1 main_call0.v32 main_call0.call3.v2 select,
    StableHlo.TRef.unary main_call0.call1.v1 main_call0.v34 (extractStridedSlice S64x1 ![0, 1] · slices_S64x2_S64x1_0_1),
    StableHlo.TRef.reshape main_call0.v34 main_call0.v35 rfl shapeCasts_S64x1_S64,
    StableHlo.TRef.unary main_call0.call0.v1 main_call0.v36 (extractStridedSlice S64x1 ![0, 1] · slices_S64x2_S64x1_0_1),
    StableHlo.TRef.reshape main_call0.v36 main_call0.v37 rfl shapeCasts_S64x1_S64,
    StableHlo.TRef.binary main_call0.call3.v2 main_call0.v37 main_call0.v38 mulf,
    StableHlo.TRef.binary main_call0.v35 main_call0.v38 main_call0.v39 subf,
    StableHlo.TRef.nullary main_call0.c_2 (constantI S_ 32 4294967295#32),
    StableHlo.TRef.nullary main_call0.c_3 (constantI S_ 32 1#32),
    StableHlo.TRef.unary main_call0.c_2 main_call0.call4.v0 (broadcastInDim S64 ![] bcast_S_S64),
    StableHlo.TRef.unary main_call0.c_3 main_call0.call4.v1 (broadcastInDim S64 ![] bcast_S_S64),
    StableHlo.TRef.ternary main_call0.v6 main_call0.call4.v0 main_call0.call4.v1 main_call0.call4.v2 select,
    StableHlo.TRef.unary main_call0.call0.v1 main_call0.v41 (extractStridedSlice S64x1 ![0, 0] · slices_S64x2_S64x1_0_0),
    StableHlo.TRef.reshape main_call0.v41 main_call0.v42 rfl shapeCasts_S64x1_S64,
    StableHlo.TRef.unary main_call0.call4.v2 main_call0.v43 (sitofp .f32),
    StableHlo.TRef.binary main_call0.v43 main_call0.v42 main_call0.v44 mulf,
    StableHlo.TRef.binary main_call0.v44 main_call0.v39 main_call0.v45 mulf,
    StableHlo.unary main_v9 main_v10 (Host.absf : (⟨S64, .f32⟩ : BufTy).Contents (Elt F) → (⟨S64, .f32⟩ : BufTy).Contents (Elt F)),
    StableHlo.nullary main_cst_1 (constant S_ .f32 0x3A83126F#32),
    StableHlo.unary main_cst_1 main_v11 (broadcastInDim S64 ![] bcast_S_S64 : (⟨S_, .f32⟩ : BufTy).Contents (Elt F) → (⟨S64, .f32⟩ : BufTy).Contents (Elt F)),
    StableHlo.binary main_v10 main_v11 main_v12 (addf : (⟨S64, .f32⟩ : BufTy).Contents (Elt F) → (⟨S64, .f32⟩ : BufTy).Contents (Elt F) → (⟨S64, .f32⟩ : BufTy).Contents (Elt F)),
    StableHlo.unary main_v12 main_v13 (Host.log : (⟨S64, .f32⟩ : BufTy).Contents (Elt F) → (⟨S64, .f32⟩ : BufTy).Contents (Elt F)),
    StableHlo.unary main_v13 main_v14 (Host.negf : (⟨S64, .f32⟩ : BufTy).Contents (Elt F) → (⟨S64, .f32⟩ : BufTy).Contents (Elt F)),
    StableHlo.nullary main_cst_2 (constant S_ .f32 0x00000000#32),
    StableHlo.binary main_v14 main_cst_2 main_v15 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.nullary main_cst_3 (constant S_ .f32 0x42800000#32),
    StableHlo.binary main_v15 main_cst_3 main_v16 (Host.divf : (⟨S_, .f32⟩ : BufTy).Contents (Elt F) → (⟨S_, .f32⟩ : BufTy).Contents (Elt F) → (⟨S_, .f32⟩ : BufTy).Contents (Elt F)) ]

-- eighty-one binds re-associated: the rewrite under the chain recurses once per statement
set_option maxRecDepth 4096 in
set_option maxHeartbeats 3200000 in
/-- @main is that straight line: the functions' definitions unfolded at their calls and the records at their fields,
    both sides are one chain of steps once sequencing is reassociated. -/
theorem main_eq (c : Dev nD) : main (F := F) c = seq ops := by
  simp only [main, fn_det.body, fn_where.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., binary_bufs_sub .., reshape_bufs_sub ..,
    nullary_bufs_sub .., unary_bufs_sub .., binary_bufs_sub .., binary_bufs_sub .., binary_bufs_sub .., unary_bufs_sub ..,
    reshape_bufs_sub .., unary_bufs_sub .., unary_bufs_sub .., reshape_bufs_sub .., unary_bufs_sub .., binary_bufs_sub ..,
    unary_bufs_sub .., unary_bufs_sub .., reshape_bufs_sub .., unary_bufs_sub .., reshape_bufs_sub .., unary_bufs_sub ..,
    ternary_bufs_sub .., unary_bufs_sub .., unary_bufs_sub .., reshape_bufs_sub .., unary_bufs_sub .., reshape_bufs_sub ..,
    unary_bufs_sub .., ternary_bufs_sub .., unary_bufs_sub .., reshape_bufs_sub .., nullary_bufs_sub .., unary_bufs_sub ..,
    binary_bufs_sub .., unary_bufs_sub .., reshape_bufs_sub .., nullary_bufs_sub .., unary_bufs_sub .., unary_bufs_sub ..,
    ternary_bufs_sub .., unary_bufs_sub .., reshape_bufs_sub .., nullary_bufs_sub .., unary_bufs_sub .., binary_bufs_sub ..,
    unary_bufs_sub .., reshape_bufs_sub .., binary_bufs_sub .., nullary_bufs_sub .., unary_bufs_sub .., unary_bufs_sub ..,
    ternary_bufs_sub .., unary_bufs_sub .., reshape_bufs_sub .., unary_bufs_sub .., reshape_bufs_sub .., binary_bufs_sub ..,
    binary_bufs_sub .., nullary_bufs_sub .., nullary_bufs_sub .., unary_bufs_sub .., unary_bufs_sub .., ternary_bufs_sub ..,
    unary_bufs_sub .., reshape_bufs_sub .., unary_bufs_sub .., binary_bufs_sub .., binary_bufs_sub .., unary_bufs_sub ..,
    nullary_bufs_sub .., unary_bufs_sub .., binary_bufs_sub .., unary_bufs_sub .., unary_bufs_sub .., nullary_bufs_sub ..,
    binary_bufs_sub .., nullary_bufs_sub .., binary_bufs_sub ..⟩

end Cert.ReferenceIdeal.RefRun

end
-- ==== Proof.RefSeg.lean ====
/-
  The reference's operation list cut in three: the eleven operations that build the 64 matrices, the sixty of the
  determinant function, the ten that take the mean of -log(|det| + eps). The fold over a concatenation is the
  fold over its second part from the fold over its first.
-/
import proofs.«153985_j17600775979806_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations that build the matrices. -/
abbrev opsA : List (HloOp τ sig (Elt F)) :=
  [ StableHlo.reshape main_arg0 main_v0 rfl shapeCasts_S64x1x512x512_S64x1x262144,
    StableHlo.nullary main_cst (constant S_ .f32 0x3F800000#32),
    StableHlo.unary main_cst main_v1 (broadcastInDim S64x1x262144 ![] bcast_S_S64x1x262144 : (⟨S_, .f32⟩ : BufTy).Contents (Elt F) → (⟨S64x1x262144, .f32⟩ : BufTy).Contents (Elt F)),
    StableHlo.binary main_v1 main_v0 main_v2 (subf : (⟨S64x1x262144, .f32⟩ : BufTy).Contents (Elt F) → (⟨S64x1x262144, .f32⟩ : BufTy).Contents (Elt F) → (⟨S64x1x262144, .f32⟩ : BufTy).Contents (Elt F)),
    StableHlo.binary main_v0 main_v2 main_v3 ((fun a b => concatenate S64x2x262144 1 [⟨S64x1x262144, a⟩, ⟨S64x1x262144, b⟩] concatenates_S64x1x262144_S64x1x262144_S64x2x262144_d1) : (⟨S64x1x262144, .f32⟩ : BufTy).Contents (Elt F) → (⟨S64x1x262144, .f32⟩ : BufTy).Contents (Elt F) → (⟨S64x2x262144, .f32⟩ : BufTy).Contents (Elt F)),
    StableHlo.reshape main_arg1 main_v4 rfl shapeCasts_S64x1x512x512_S64x1x262144,
    StableHlo.nullary main_cst_0 (constant S_ .f32 0x3F800000#32),
    StableHlo.unary main_cst_0 main_v5 (broadcastInDim S64x1x262144 ![] bcast_S_S64x1x262144 : (⟨S_, .f32⟩ : BufTy).Contents (Elt F) → (⟨S64x1x262144, .f32⟩ : BufTy).Contents (Elt F)),
    StableHlo.binary main_v5 main_v4 main_v6 (subf : (⟨S64x1x262144, .f32⟩ : BufTy).Contents (Elt F) → (⟨S64x1x262144, .f32⟩ : BufTy).Contents (Elt F) → (⟨S64x1x262144, .f32⟩ : BufTy).Contents (Elt F)),
    StableHlo.binary main_v4 main_v6 main_v7 ((fun a b => concatenate S64x2x262144 1 [⟨S64x1x262144, a⟩, ⟨S64x1x262144, b⟩] concatenates_S64x1x262144_S64x1x262144_S64x2x262144_d1) : (⟨S64x1x262144, .f32⟩ : BufTy).Contents (Elt F) → (⟨S64x1x262144, .f32⟩ : BufTy).Contents (Elt F) → (⟨S64x2x262144, .f32⟩ : BufTy).Contents (Elt F)),
    StableHlo.binary main_v3 main_v7 main_v8 ((fun l r => Host.dotGeneral dot_S64x2x262144_S64x2x262144_S64x2x2_2_2_1_1_0_0 none l r) : (⟨S64x2x262144, .f32⟩ : BufTy).Contents (Elt F) → (⟨S64x2x262144, .f32⟩ : BufTy).Contents (Elt F) → (⟨S64x2x2, .f32⟩ : BufTy).Contents (Elt F)) ]

/-- The determinant function's operations, its calls unfolded. -/
abbrev opsB : List (HloOp τ sig (Elt F)) :=
  [ StableHlo.TRef.unary (.of main_v8 : TRef sig ⟨S64x2x2, .f32⟩) main_call0.v0 (extractStridedSlice S64x1x1 ![0, 1, 0] · slices_S64x2x2_S64x1x1_0_1_0),
    StableHlo.TRef.reshape main_call0.v0 main_call0.v1 rfl shapeCasts_S64x1x1_S64,
    StableHlo.TRef.unary main_call0.v1 main_call0.v2 Host.absf,
    StableHlo.TRef.unary (.of main_v8 : TRef sig ⟨S64x2x2, .f32⟩) main_call0.v3 (extractStridedSlice S64x1x1 ![0, 0, 0] · slices_S64x2x2_S64x1x1_0_0_0),
    StableHlo.TRef.reshape main_call0.v3 main_call0.v4 rfl shapeCasts_S64x1x1_S64,
    StableHlo.TRef.unary main_call0.v4 main_call0.v5 Host.absf,
    StableHlo.TRef.binary main_call0.v2 main_call0.v5 main_call0.v6 (cmpf .ogt),
    StableHlo.TRef.unary main_call0.v6 main_call0.v7 (broadcastInDim S64x1 ![0] bcast_S64_S64x1_0),
    StableHlo.TRef.unary (.of main_v8 : TRef sig ⟨S64x2x2, .f32⟩) main_call0.v8 (extractStridedSlice S64x1x2 ![0, 1, 0] · slices_S64x2x2_S64x1x2_0_1_0),
    StableHlo.TRef.reshape main_call0.v8 main_call0.v9 rfl shapeCasts_S64x1x2_S64x2,
    StableHlo.TRef.unary (.of main_v8 : TRef sig ⟨S64x2x2, .f32⟩) main_call0.v10 (extractStridedSlice S64x1x2 ![0, 0, 0] · slices_S64x2x2_S64x1x2_0_0_0),
    StableHlo.TRef.reshape main_call0.v10 main_call0.v11 rfl shapeCasts_S64x1x2_S64x2,
    StableHlo.TRef.unary main_call0.v7 main_call0.call0.v0 (broadcastInDim S64x2 ![0, 1] bcast_S64x1_S64x2_0_1),
    StableHlo.TRef.ternary main_call0.call0.v0 main_call0.v9 main_call0.v11 main_call0.call0.v1 select,
    StableHlo.TRef.unary main_call0.v6 main_call0.v13 (broadcastInDim S64x1 ![0] bcast_S64_S64x1_0),
    StableHlo.TRef.unary (.of main_v8 : TRef sig ⟨S64x2x2, .f32⟩) main_call0.v14 (extractStridedSlice S64x1x2 ![0, 0, 0] · slices_S64x2x2_S64x1x2_0_0_0),
    StableHlo.TRef.reshape main_call0.v14 main_call0.v15 rfl shapeCasts_S64x1x2_S64x2,
    StableHlo.TRef.unary (.of main_v8 : TRef sig ⟨S64x2x2, .f32⟩) main_call0.v16 (extractStridedSlice S64x1x2 ![0, 1, 0] · slices_S64x2x2_S64x1x2_0_1_0),
    StableHlo.TRef.reshape main_call0.v16 main_call0.v17 rfl shapeCasts_S64x1x2_S64x2,
    StableHlo.TRef.unary main_call0.v13 main_call0.call1.v0 (broadcastInDim S64x2 ![0, 1] bcast_S64x1_S64x2_0_1),
    StableHlo.TRef.ternary main_call0.call1.v0 main_call0.v15 main_call0.v17 main_call0.call1.v1 select,
    StableHlo.TRef.unary main_call0.call0.v1 main_call0.v19 (extractStridedSlice S64x1 ![0, 0] · slices_S64x2_S64x1_0_0),
    StableHlo.TRef.reshape main_call0.v19 main_call0.v20 rfl shapeCasts_S64x1_S64,
    StableHlo.TRef.nullary main_call0.cst (constant S_ .f32 0x00000000#32),
    StableHlo.TRef.unary main_call0.cst main_call0.v21 (broadcastInDim S64 ![] bcast_S_S64),
    StableHlo.TRef.binary main_call0.v20 main_call0.v21 main_call0.v22 (cmpf .oeq),
    StableHlo.TRef.unary main_call0.call0.v1 main_call0.v23 (extractStridedSlice S64x1 ![0, 0] · slices_S64x2_S64x1_0_0),
    StableHlo.TRef.reshape main_call0.v23 main_call0.v24 rfl shapeCasts_S64x1_S64,
    StableHlo.TRef.nullary main_call0.c (constantI S_ 32 1#32),
    StableHlo.TRef.unary main_call0.c main_call0.call2.v0 (sitofp .f32),
    StableHlo.TRef.unary main_call0.call2.v0 main_call0.call2.v1 (broadcastInDim S64 ![] bcast_S_S64),
    StableHlo.TRef.ternary main_call0.v22 main_call0.call2.v1 main_call0.v24 main_call0.call2.v2 select,
    StableHlo.TRef.unary main_call0.call0.v1 main_call0.v26 (extractStridedSlice S64x1 ![0, 0] · slices_S64x2_S64x1_0_0),
    StableHlo.TRef.reshape main_call0.v26 main_call0.v27 rfl shapeCasts_S64x1_S64,
    StableHlo.TRef.nullary main_call0.cst_0 (constant S_ .f32 0x00000000#32),
    StableHlo.TRef.unary main_call0.cst_0 main_call0.v28 (broadcastInDim S64 ![] bcast_S_S64),
    StableHlo.TRef.binary main_call0.v27 main_call0.v28 main_call0.v29 (cmpf .oeq),
    StableHlo.TRef.unary main_call0.call1.v1 main_call0.v30 (extractStridedSlice S64x1 ![0, 0] · slices_S64x2_S64x1_0_0),
    StableHlo.TRef.reshape main_call0.v30 main_call0.v31 rfl shapeCasts_S64x1_S64,
    StableHlo.TRef.binary main_call0.v31 main_call0.call2.v2 main_call0.v32 Host.divf,
    StableHlo.TRef.nullary main_call0.c_1 (constantI S_ 32 0#32),
    StableHlo.TRef.unary main_call0.c_1 main_call0.call3.v0 (sitofp .f32),
    StableHlo.TRef.unary main_call0.call3.v0 main_call0.call3.v1 (broadcastInDim S64 ![] bcast_S_S64),
    StableHlo.TRef.ternary main_call0.v29 main_call0.call3.v1 main_call0.v32 main_call0.call3.v2 select,
    StableHlo.TRef.unary main_call0.call1.v1 main_call0.v34 (extractStridedSlice S64x1 ![0, 1] · slices_S64x2_S64x1_0_1),
    StableHlo.TRef.reshape main_call0.v34 main_call0.v35 rfl shapeCasts_S64x1_S64,
    StableHlo.TRef.unary main_call0.call0.v1 main_call0.v36 (extractStridedSlice S64x1 ![0, 1] · slices_S64x2_S64x1_0_1),
    StableHlo.TRef.reshape main_call0.v36 main_call0.v37 rfl shapeCasts_S64x1_S64,
    StableHlo.TRef.binary main_call0.call3.v2 main_call0.v37 main_call0.v38 mulf,
    StableHlo.TRef.binary main_call0.v35 main_call0.v38 main_call0.v39 subf,
    StableHlo.TRef.nullary main_call0.c_2 (constantI S_ 32 4294967295#32),
    StableHlo.TRef.nullary main_call0.c_3 (constantI S_ 32 1#32),
    StableHlo.TRef.unary main_call0.c_2 main_call0.call4.v0 (broadcastInDim S64 ![] bcast_S_S64),
    StableHlo.TRef.unary main_call0.c_3 main_call0.call4.v1 (broadcastInDim S64 ![] bcast_S_S64),
    StableHlo.TRef.ternary main_call0.v6 main_call0.call4.v0 main_call0.call4.v1 main_call0.call4.v2 select,
    StableHlo.TRef.unary main_call0.call0.v1 main_call0.v41 (extractStridedSlice S64x1 ![0, 0] · slices_S64x2_S64x1_0_0),
    StableHlo.TRef.reshape main_call0.v41 main_call0.v42 rfl shapeCasts_S64x1_S64,
    StableHlo.TRef.unary main_call0.call4.v2 main_call0.v43 (sitofp .f32),
    StableHlo.TRef.binary main_call0.v43 main_call0.v42 main_call0.v44 mulf,
    StableHlo.TRef.binary main_call0.v44 main_call0.v39 main_call0.v45 mulf ]

/-- The operations that take the mean. -/
abbrev opsC : List (HloOp τ sig (Elt F)) :=
  [ StableHlo.unary main_v9 main_v10 (Host.absf : (⟨S64, .f32⟩ : BufTy).Contents (Elt F) → (⟨S64, .f32⟩ : BufTy).Contents (Elt F)),
    StableHlo.nullary main_cst_1 (constant S_ .f32 0x3A83126F#32),
    StableHlo.unary main_cst_1 main_v11 (broadcastInDim S64 ![] bcast_S_S64 : (⟨S_, .f32⟩ : BufTy).Contents (Elt F) → (⟨S64, .f32⟩ : BufTy).Contents (Elt F)),
    StableHlo.binary main_v10 main_v11 main_v12 (addf : (⟨S64, .f32⟩ : BufTy).Contents (Elt F) → (⟨S64, .f32⟩ : BufTy).Contents (Elt F) → (⟨S64, .f32⟩ : BufTy).Contents (Elt F)),
    StableHlo.unary main_v12 main_v13 (Host.log : (⟨S64, .f32⟩ : BufTy).Contents (Elt F) → (⟨S64, .f32⟩ : BufTy).Contents (Elt F)),
    StableHlo.unary main_v13 main_v14 (Host.negf : (⟨S64, .f32⟩ : BufTy).Contents (Elt F) → (⟨S64, .f32⟩ : BufTy).Contents (Elt F)),
    StableHlo.nullary main_cst_2 (constant S_ .f32 0x00000000#32),
    StableHlo.binary main_v14 main_cst_2 main_v15 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.nullary main_cst_3 (constant S_ .f32 0x42800000#32),
    StableHlo.binary main_v15 main_cst_3 main_v16 (Host.divf : (⟨S_, .f32⟩ : BufTy).Contents (Elt F) → (⟨S_, .f32⟩ : BufTy).Contents (Elt F) → (⟨S_, .f32⟩ : BufTy).Contents (Elt F)) ]

set_option maxRecDepth 4096 in
theorem ops_split : (ops : List (HloOp τ sig (Elt F))) = opsA ++ (opsB ++ opsC) := rfl

/-- The fold over a concatenation. -/
theorem after_app {t : Topo} {sg : RefSig} {Val : EltTy → Type} :
    ∀ (l₁ l₂ : List (HloOp t sg Val)) (V : Valuation t sg Val), after (l₁ ++ l₂) V = after l₂ (after l₁ V)
  | [], _, _ => rfl
  | op :: l₁, l₂, V => by rw [List.cons_append, after_cons, after_cons, after_app l₁ l₂]

end Cert.ReferenceIdeal.RefRun

end
-- ==== Proof.RefTerm.lean ====
/-
  The reference's result as one pure term of its two argument arrays, in named stages.

  Each argument array is flattened to [64, 1, 262144] and stacked with its complement 1 - x along axis 1;
  the two stacks are contracted over the pixel axis into the 64 matrices M_b (2 x 2). The determinant of each
  M_b is taken by elimination with a row exchange: the rows are exchanged when |M_b[1,0]| > |M_b[0,0]|; with
  (u, v) the rows after the exchange and p = u[0], the multiplier is l = v[0] / p (0 when p = 0, dividing by 1
  there) and the determinant is (sign * p) * (v[1] - l * u[1]), sign = -1 after an exchange and 1 otherwise.
  The result is the sum over b, from the zero word, of -log(|det M_b| + eps), divided by 64.
-/
import proofs.«153985_j17600775979806_2_alg».proof.Proof.Gen.ReferenceIdeal
import Idealize.ShloMosaic.PureOps.Ideal

noncomputable section

namespace Cert.ReferenceIdeal.RefRun

open Idealize.ShloMosaic Idealize.SL.Sem Cert.ReferenceIdeal Cert.ReferenceIdeal.Gen

/-- An argument array flattened over its trailing axes. -/
def flat (X : FVec Ideal S64x1x512x512 .f32) : FVec Ideal S64x1x262144 .f32 :=
  shapeCast S64x1x262144 X shapeCasts_S64x1x512x512_S64x1x262144

/-- The array of ones at the flattened shape. -/
def ones : FVec Ideal S64x1x262144 .f32 :=
  broadcastInDim S64x1x262144 ![] bcast_S_S64x1x262144 (constant (F := Ideal) S_ .f32 0x3F800000#32)

/-- The two channels x and 1 - x stacked along axis 1. -/
def chan (X : FVec Ideal S64x1x512x512 .f32) : FVec Ideal S64x2x262144 .f32 :=
  concatenate S64x2x262144 1 [⟨S64x1x262144, flat X⟩, ⟨S64x1x262144, subf ones (flat X)⟩]
    concatenates_S64x1x262144_S64x1x262144_S64x2x262144_d1

/-- The 64 matrices: channel i of the first array against channel j of the second, summed over the pixels. -/
def mat (X Y : FVec Ideal S64x1x512x512 .f32) : FVec Ideal S64x2x2 .f32 :=
  Host.dotGeneral (F := Ideal) dot_S64x2x262144_S64x2x262144_S64x2x2_2_2_1_1_0_0 none (chan X) (chan Y)

/-- The entries [b, 1, 0] and [b, 0, 0] as vectors over b. -/
def e10 (M : FVec Ideal S64x2x2 .f32) : FVec Ideal S64 .f32 :=
  shapeCast S64 (extractStridedSlice S64x1x1 ![0, 1, 0] M slices_S64x2x2_S64x1x1_0_1_0) shapeCasts_S64x1x1_S64
def e00 (M : FVec Ideal S64x2x2 .f32) : FVec Ideal S64 .f32 :=
  shapeCast S64 (extractStridedSlice S64x1x1 ![0, 0, 0] M slices_S64x2x2_S64x1x1_0_0_0) shapeCasts_S64x1x1_S64

/-- Whether the rows are exchanged: |M[b,1,0]| > |M[b,0,0]|. -/
def swap (M : FVec Ideal S64x2x2 .f32) : IVec S64 1 :=
  cmpf .ogt (Host.absf (F := Ideal) (e10 M)) (Host.absf (F := Ideal) (e00 M))

/-- The same bit at every entry of a row. -/
def swap2 (M : FVec Ideal S64x2x2 .f32) : IVec S64x2 1 :=
  broadcastInDim S64x2 ![0, 1] bcast_S64x1_S64x2_0_1 (broadcastInDim S64x1 ![0] bcast_S64_S64x1_0 (swap M))

/-- Rows 1 and 0 of every matrix. -/
def row1 (M : FVec Ideal S64x2x2 .f32) : FVec Ideal S64x2 .f32 :=
  shapeCast S64x2 (extractStridedSlice S64x1x2 ![0, 1, 0] M slices_S64x2x2_S64x1x2_0_1_0) shapeCasts_S64x1x2_S64x2
def row0 (M : FVec Ideal S64x2x2 .f32) : FVec Ideal S64x2 .f32 :=
  shapeCast S64x2 (extractStridedSlice S64x1x2 ![0, 0, 0] M slices_S64x2x2_S64x1x2_0_0_0) shapeCasts_S64x1x2_S64x2

/-- The pivot row and the other row, after the exchange. -/
def rowU (M : FVec Ideal S64x2x2 .f32) : FVec Ideal S64x2 .f32 := select (swap2 M) (row1 M) (row0 M)
def rowV (M : FVec Ideal S64x2x2 .f32) : FVec Ideal S64x2 .f32 := select (swap2 M) (row0 M) (row1 M)

/-- Columns 0 and 1 of a [64, 2] array as vectors over b. -/
def col0 (R : FVec Ideal S64x2 .f32) : FVec Ideal S64 .f32 :=
  shapeCast S64 (extractStridedSlice S64x1 ![0, 0] R slices_S64x2_S64x1_0_0) shapeCasts_S64x1_S64
def col1 (R : FVec Ideal S64x2 .f32) : FVec Ideal S64 .f32 :=
  shapeCast S64 (extractStridedSlice S64x1 ![0, 1] R slices_S64x2_S64x1_0_1) shapeCasts_S64x1_S64

/-- The zero vector, and an integer word as a float at every b. -/
def zeros : FVec Ideal S64 .f32 :=
  broadcastInDim S64 ![] bcast_S_S64 (constant (F := Ideal) S_ .f32 0x00000000#32)
def intVec (w : BitVec 32) : FVec Ideal S64 .f32 :=
  broadcastInDim S64 ![] bcast_S_S64 (sitofp (F := Ideal) .f32 (constantI S_ 32 w))

/-- Whether the pivot is zero. -/
def pivZero (M : FVec Ideal S64x2x2 .f32) : IVec S64 1 := cmpf .oeq (col0 (rowU M)) zeros

/-- The divisor: the pivot, or 1 where the pivot is zero. -/
def psafe (M : FVec Ideal S64x2x2 .f32) : FVec Ideal S64 .f32 :=
  select (pivZero M) (intVec 1#32) (col0 (rowU M))

/-- The multiplier: v[0] / divisor, or 0 where the pivot is zero. -/
def lfac (M : FVec Ideal S64x2x2 .f32) : FVec Ideal S64 .f32 :=
  select (pivZero M) (intVec 0#32) (Host.divf (F := Ideal) (col0 (rowV M)) (psafe M))

/-- The second pivot: v[1] - l * u[1]. -/
def schur (M : FVec Ideal S64x2x2 .f32) : FVec Ideal S64 .f32 :=
  subf (col1 (rowV M)) (mulf (lfac M) (col1 (rowU M)))

/-- The exchange's sign: -1 after an exchange, 1 otherwise. -/
def sign (M : FVec Ideal S64x2x2 .f32) : FVec Ideal S64 .f32 :=
  sitofp (F := Ideal) .f32 (select (swap M) (broadcastInDim S64 ![] bcast_S_S64 (constantI S_ 32 4294967295#32))
    (broadcastInDim S64 ![] bcast_S_S64 (constantI S_ 32 1#32)))

/-- The determinants: (sign * pivot) * second pivot. -/
def det (M : FVec Ideal S64x2x2 .f32) : FVec Ideal S64 .f32 :=
  mulf (mulf (sign M) (col0 (rowU M))) (schur M)

/-- The mean over b of -log(|D b| + eps): the sum from the zero word, divided by 64. -/
def lossOf (D : FVec Ideal S64 .f32) : FVec Ideal S_ .f32 :=
  Host.divf (F := Ideal)
    (Host.reduceAdd (F := Ideal)
      (Host.negf (F := Ideal) (Host.log (F := Ideal)
        (addf (Host.absf (F := Ideal) D)
          (broadcastInDim S64 ![] bcast_S_S64 (constant (F := Ideal) S_ .f32 0x3A83126F#32)))))
      (constant (F := Ideal) S_ .f32 0x00000000#32) reducesTo_S64_S_d0 h_S_)
    (constant (F := Ideal) S_ .f32 0x42800000#32)

/-- The composed pure term of @main: the result as a function of the two argument arrays. -/
def term (X Y : FVec Ideal S64x1x512x512 .f32) : FVec Ideal S_ .f32 := lossOf (det (mat X Y))

end Cert.ReferenceIdeal.RefRun

end
-- ==== Proof.RefSegA.lean ====
/-
  The first eleven operations: from any contents, the matrices' buffer ends at the contraction of the two stacked
  arrays built from the argument buffers' contents, and the argument buffers are not written.
-/
import proofs.«153985_j17600775979806_2_alg».proof.Proof.RefSeg
import proofs.«153985_j17600775979806_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 1600000 in
theorem segA_v8 (V : Valuation τ sig (Elt Ideal)) :
    after (opsA (F := Ideal)) V (main_v8 : DevRef τ sig)
      = mat (V (main_arg0 : DevRef τ sig)) (V (main_arg1 : DevRef τ sig)) := by
  after_results
  rfl

set_option maxRecDepth 8192 in
theorem segA_arg0 (V : Valuation τ sig (Elt Ideal)) :
    after (opsA (F := Ideal)) V (main_arg0 : DevRef τ sig) = V (main_arg0 : DevRef τ sig) := by
  after_results_simp

set_option maxRecDepth 8192 in
theorem segA_arg1 (V : Valuation τ sig (Elt Ideal)) :
    after (opsA (F := Ideal)) V (main_arg1 : DevRef τ sig) = V (main_arg1 : DevRef τ sig) := by
  after_results_simp

end Cert.ReferenceIdeal.RefRun

end
-- ==== Proof.RefSegB.lean ====
/-
  The determinant function's sixty operations: from any contents, the result buffer ends at the determinants of the
  matrices' buffer's contents, and the argument buffers are not written.
-/
import proofs.«153985_j17600775979806_2_alg».proof.Proof.RefSeg
import proofs.«153985_j17600775979806_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 16384 in
set_option maxHeartbeats 3200000 in
theorem segB_v9 (W : Valuation τ sig (Elt Ideal)) :
    after (opsB (F := Ideal)) W (main_v9 : DevRef τ sig) = det (W (main_v8 : DevRef τ sig)) := by
  after_results_simp
  rfl

set_option maxRecDepth 8192 in
set_option maxHeartbeats 1600000 in
theorem segB_arg0 (W : Valuation τ sig (Elt Ideal)) :
    after (opsB (F := Ideal)) W (main_arg0 : DevRef τ sig) = W (main_arg0 : DevRef τ sig) := by
  after_results_simp

set_option maxRecDepth 8192 in
set_option maxHeartbeats 1600000 in
theorem segB_arg1 (W : Valuation τ sig (Elt Ideal)) :
    after (opsB (F := Ideal)) W (main_arg1 : DevRef τ sig) = W (main_arg1 : DevRef τ sig) := by
  after_results_simp

end Cert.ReferenceIdeal.RefRun

end
-- ==== Proof.RefSegC.lean ====
/-
  The last ten operations: from any contents, the result buffer ends at the mean of -log(|D| + eps) over the
  determinants' buffer's contents D, and the argument buffers are not written.
-/
import proofs.«153985_j17600775979806_2_alg».proof.Proof.RefSeg
import proofs.«153985_j17600775979806_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
theorem segC_v16 (W : Valuation τ sig (Elt Ideal)) :
    after (opsC (F := Ideal)) W (main_v16 : DevRef τ sig) = lossOf (W (main_v9 : DevRef τ sig)) := by
  after_results_simp
  rfl

set_option maxRecDepth 8192 in
theorem segC_arg0 (W : Valuation τ sig (Elt Ideal)) :
    after (opsC (F := Ideal)) W (main_arg0 : DevRef τ sig) = W (main_arg0 : DevRef τ sig) := by
  after_results_simp

set_option maxRecDepth 8192 in
theorem segC_arg1 (W : Valuation τ sig (Elt Ideal)) :
    after (opsC (F := Ideal)) W (main_arg1 : DevRef τ sig) = W (main_arg1 : DevRef τ sig) := by
  after_results_simp

end Cert.ReferenceIdeal.RefRun

end
-- ==== Proof.RefRun.lean ====
/-
  The reference's run: from any memory with zero counters every weakly fair execution of @main terminates with
  the result buffer at the composed term of the two argument arrays' launch contents, the arguments unchanged.
  The fold of the operation list is taken segment by segment: the matrices, their determinants, the mean; each
  segment's result is its stage of the term at the contents the segment before left, and no operation writes an
  argument buffer.
-/
import proofs.«153985_j17600775979806_2_alg».proof.Proof.RefSegA
import proofs.«153985_j17600775979806_2_alg».proof.Proof.RefSegB
import proofs.«153985_j17600775979806_2_alg».proof.Proof.RefSegC

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The fold at the result buffer is the composed term of the contents at the two argument buffers. -/
theorem out_eq (V : Valuation τ sig (Elt Ideal)) :
    after (ops (F := Ideal)) V (main_v16 : DevRef τ sig)
      = term (V (main_arg0 : DevRef τ sig)) (V (main_arg1 : DevRef τ sig)) := by
  rw [ops_split, after_app, after_app, segC_v16, segB_v9, segA_v8]
  rfl

/-- No operation writes an argument buffer. -/
theorem arg0_eq (V : Valuation τ sig (Elt Ideal)) :
    after (ops (F := Ideal)) V (main_arg0 : DevRef τ sig) = V (main_arg0 : DevRef τ sig) := by
  rw [ops_split, after_app, after_app, segC_arg0, segB_arg0, segA_arg0]

theorem arg1_eq (V : Valuation τ sig (Elt Ideal)) :
    after (ops (F := Ideal)) V (main_arg1 : DevRef τ sig) = V (main_arg1 : DevRef τ sig) := by
  rw [ops_split, after_app, after_app, segC_arg1, segB_arg1, segA_arg1]

/-- On every device, from any memory with zero counters: every weakly fair execution of @main terminates with the
    result at the composed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16) = term (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v16).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefReadMat.lean ====
/-
  The 64 matrices read at an index. The flattened array reads pixel p of row b at (b, 0, p / 512, p % 512); the
  stack of x and 1 - x reads channel 0 as x and channel 1 as 1 - x; the contraction over the pixel axis, with the
  batch axis kept, reads entry (b, i, j) as the sum over the pixels of channel i of the first array times channel j
  of the second. So the four entries of matrix b are the four sums of products of (x, 1 - x) with (y, 1 - y).
-/
import proofs.«153985_j17600775979806_2_alg».proof.Proof.RefTerm
import proofs.«153985_j17600775979806_2_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.RefRead

open Idealize.ShloMosaic Idealize.ShloMosaic.ValueIdx Cert.ReferenceIdeal Cert.ReferenceIdeal.Gen Cert.ReferenceIdeal.RefRun
open Cert.DetLoss

/-- The flattened array at (b, 0, p) is pixel p of row b. -/
theorem flat_apply (X : FVec Ideal S64x1x512x512 .f32) (b : Fin 64) (p : Fin 262144) :
    flat X (ix3 b (0 : Fin 1) p) = rows X b p := by
  unfold flat rows
  refine shapeCast_apply X shapeCasts_S64x1x512x512_S64x1x262144 (ix3 b (0 : Fin 1) p)
    (ix4 b (0 : Fin 1) (⟨p.val / 512, by omega⟩ : Fin 512) (⟨p.val % 512, by omega⟩ : Fin 512)) ?_
  rw [Shape.rowMajor_val_four, Shape.rowMajor_val_three]
  show ((b.val * 1 + 0) * 512 + p.val / 512) * 512 + p.val % 512 = (b.val * 1 + 0) * 262144 + p.val
  omega

/-- The array of ones reads the word of 1.0 everywhere. -/
theorem ones_apply (j : S64x1x262144.Idx) : ones j = one := by
  unfold ones one
  rw [broadcastInDim_scalar_apply, constant_apply]

/-- Channel 0 of the stack is the array. -/
theorem chan_apply0 (X : FVec Ideal S64x1x512x512 .f32) (b : Fin 64) (p : Fin 262144) :
    chan X (ix3 b (0 : Fin 2) p) = rows X b p := by
  unfold chan
  refine (concatenate_pair_apply_left (t := S64x2x262144) (s₁ := S64x1x262144) (s₂ := S64x1x262144) _ _ _ _ (ix3 b (0 : Fin 2) p) rfl (ix3 b (0 : Fin 1) p) ?_).trans (flat_apply X b p)
  intro a
  match a with
  | ⟨0, _⟩ => rfl
  | ⟨1, _⟩ => rfl
  | ⟨2, _⟩ => rfl

/-- Channel 1 of the stack is the complement. -/
theorem chan_apply1 (X : FVec Ideal S64x1x512x512 .f32) (b : Fin 64) (p : Fin 262144) :
    chan X (ix3 b (1 : Fin 2) p) = one - rows X b p := by
  unfold chan
  refine (concatenate_pair_apply_right (t := S64x2x262144) (s₁ := S64x1x262144) (s₂ := S64x1x262144) _ _ _ _ (ix3 b (1 : Fin 2) p) rfl rfl (ix3 b (0 : Fin 1) p) ?_ ?_).trans ?_
  · intro a ha
    match a, ha with
    | ⟨0, _⟩, _ => rfl
    | ⟨1, _⟩, ha => exact absurd rfl ha
    | ⟨2, _⟩, _ => rfl
  · rfl
  · rw [subf_apply, ones_apply, flat_apply]

/-- Entry (b, i, j) of the contraction: the sum over the pixels of channel i times channel j. -/
theorem mat_apply (X Y : FVec Ideal S64x1x512x512 .f32) (b : Fin 64) (i j : Fin 2) :
    mat X Y (ix3 b i j) = ∑ p : Fin 262144, chan X (ix3 b i p) * chan Y (ix3 b j p) := by
  unfold mat
  show FloatOps.dotGeneral dot_S64x2x262144_S64x2x262144_S64x2x2_2_2_1_1_0_0 none _ (chan X) (chan Y) (ix3 b i j) = _
  rw [Ideal.dotGeneral_apply, ← Equiv.sum_comp (contrEquiv1 dot_S64x2x262144_S64x2x262144_S64x2x2_2_2_1_1_0_0 262144 rfl rfl).symm]
  refine Finset.sum_congr rfl fun c _ => ?_
  have c3 := contrEquiv1_symm_val dot_S64x2x262144_S64x2x262144_S64x2x2_2_2_1_1_0_0 262144 rfl rfl c
  have l3 : (dot_S64x2x262144_S64x2x262144_S64x2x2_2_2_1_1_0_0).lhsIdx (ix3 b i j) ((contrEquiv1 dot_S64x2x262144_S64x2x262144_S64x2x2_2_2_1_1_0_0 262144 rfl rfl).symm c) = ix3 b i c := by
    funext ax; apply Fin.ext
    match ax with
    | ⟨0, _⟩ => simp [DotDims.lhsIdx, dot_S64x2x262144_S64x2x262144_S64x2x2_2_2_1_1_0_0]; rfl
    | ⟨1, _⟩ => simp [DotDims.lhsIdx, dot_S64x2x262144_S64x2x262144_S64x2x2_2_2_1_1_0_0]; rfl
    | ⟨2, _⟩ => simp [DotDims.lhsIdx, dot_S64x2x262144_S64x2x262144_S64x2x2_2_2_1_1_0_0]; exact c3
  have r3 : (dot_S64x2x262144_S64x2x262144_S64x2x2_2_2_1_1_0_0).rhsIdx (ix3 b i j) ((contrEquiv1 dot_S64x2x262144_S64x2x262144_S64x2x2_2_2_1_1_0_0 262144 rfl rfl).symm c) = ix3 b j c := by
    funext ax; apply Fin.ext
    match ax with
    | ⟨0, _⟩ => simp [DotDims.rhsIdx, dot_S64x2x262144_S64x2x262144_S64x2x2_2_2_1_1_0_0]; rfl
    | ⟨1, _⟩ => simp [DotDims.rhsIdx, dot_S64x2x262144_S64x2x262144_S64x2x2_2_2_1_1_0_0]; rfl
    | ⟨2, _⟩ => simp [DotDims.rhsIdx, dot_S64x2x262144_S64x2x262144_S64x2x2_2_2_1_1_0_0]; exact c3
  rw [l3, r3]

/-- The four entries of matrix b are the four sums of products. -/
theorem mat00 (X Y : FVec Ideal S64x1x512x512 .f32) (b : Fin 64) :
    mat X Y (ix3 b (0 : Fin 2) (0 : Fin 2)) = m00 (rows X) (rows Y) b := by
  rw [mat_apply]; unfold m00
  exact Finset.sum_congr rfl fun p _ => by rw [chan_apply0, chan_apply0]
theorem mat01 (X Y : FVec Ideal S64x1x512x512 .f32) (b : Fin 64) :
    mat X Y (ix3 b (0 : Fin 2) (1 : Fin 2)) = m01 (rows X) (rows Y) b := by
  rw [mat_apply]; unfold m01
  exact Finset.sum_congr rfl fun p _ => by rw [chan_apply0, chan_apply1]
theorem mat10 (X Y : FVec Ideal S64x1x512x512 .f32) (b : Fin 64) :
    mat X Y (ix3 b (1 : Fin 2) (0 : Fin 2)) = m10 (rows X) (rows Y) b := by
  rw [mat_apply]; unfold m10
  exact Finset.sum_congr rfl fun p _ => by rw [chan_apply1, chan_apply0]
theorem mat11 (X Y : FVec Ideal S64x1x512x512 .f32) (b : Fin 64) :
    mat X Y (ix3 b (1 : Fin 2) (1 : Fin 2)) = m11 (rows X) (rows Y) b := by
  rw [mat_apply]; unfold m11
  exact Finset.sum_congr rfl fun p _ => by rw [chan_apply1, chan_apply1]

end Cert.ReferenceIdeal.RefRead

end
-- ==== Proof.RefLU.lean ====
/-
  The elimination with a row exchange, on one 2 x 2 matrix with real entries a b / c d, equals a d - b c.

  The rows are exchanged when |c| > |a|. With (u, v) the rows after the exchange and p = u[0]:
    * after an exchange p = c, and |a| < |c| makes c nonzero: the value is (-1 * c) * (b - (a / c) * d) = a d - b c;
    * with no exchange p = a; if a = 0 then |c| <= 0 makes c = 0, the multiplier is 0 and the value is
      (1 * 0) * d = 0 = a d - b c; if a is not 0 the value is (1 * a) * (d - (c / a) * b) = a d - b c.
  A division of reals by a nonzero real is the product with the inverse, so all of it is arithmetic in the reals.
-/
import Idealize.ShloMosaic.PureOps.Ideal
import Idealize.ShloMosaic.PureOps.Ideal.Laws
import Idealize.ShloMosaic.Lib.ValueIdx

noncomputable section

namespace Cert.ReferenceIdeal.RefLU

open Idealize.ShloMosaic Idealize.ShloMosaic.ValueIdx

/-- Whether the rows are exchanged, as the bit the comparison returns. -/
def swapBit (a c : EReal) : BitVec 1 := Ideal.cmp .ogt (max c (-c)) (max a (-a))

/-- The value the elimination returns on the matrix a b / c d, as the operations spell it. -/
def luDet (a b c d : EReal) : EReal :=
  ((((Scalar.select (swapBit a c) (4294967295#32 : BitVec 32) (1#32 : BitVec 32)).toInt : ℝ) : EReal)
      * Scalar.select (swapBit a c) c a)
    * (Scalar.select (swapBit a c) b d
        - Scalar.select (Ideal.cmp .oeq (Scalar.select (swapBit a c) c a) (Ideal.ofBits .f32 0x00000000#32))
            ((((0#32 : BitVec 32).toInt : ℝ) : EReal))
            (Ideal.div (Scalar.select (swapBit a c) a c)
              (Scalar.select (Ideal.cmp .oeq (Scalar.select (swapBit a c) c a) (Ideal.ofBits .f32 0x00000000#32))
                ((((1#32 : BitVec 32).toInt : ℝ) : EReal)) (Scalar.select (swapBit a c) c a)))
          * Scalar.select (swapBit a c) d b)

theorem abs_coe (x : ℝ) : max (x : EReal) (-(x : EReal)) = ((|x| : ℝ) : EReal) := by
  rw [abs_eq_max_neg, EReal.coe_strictMono.monotone.map_max, EReal.coe_neg]

theorem select_true {α : Type} (a b : α) : Scalar.select (BitVec.ofBool true) a b = a := if_pos rfl
theorem select_false {α : Type} (a b : α) : Scalar.select (BitVec.ofBool false) a b = b := if_neg (by decide)

theorem swapBit_coe (a c : ℝ) : swapBit (a : EReal) (c : EReal) = BitVec.ofBool (decide (|a| < |c|)) := by
  unfold swapBit Ideal.cmp
  rw [abs_coe, abs_coe]
  congr 1
  exact decide_eq_decide.mpr EReal.coe_lt_coe_iff

theorem isZero_coe (x : ℝ) :
    Ideal.cmp .oeq (x : EReal) (Ideal.ofBits .f32 0x00000000#32) = BitVec.ofBool (decide (x = 0)) := by
  unfold Ideal.cmp
  rw [Ideal.ofBits_zero_f32]
  congr 1
  exact decide_eq_decide.mpr EReal.coe_eq_zero

theorem toInt_neg_one : ((4294967295#32 : BitVec 32).toInt : ℝ) = -1 := by
  have : (4294967295#32 : BitVec 32).toInt = -1 := by decide
  rw [this]; norm_num
theorem toInt_one : ((1#32 : BitVec 32).toInt : ℝ) = 1 := by
  have : (1#32 : BitVec 32).toInt = 1 := by decide
  rw [this]; norm_num
theorem toInt_zero : ((0#32 : BitVec 32).toInt : ℝ) = 0 := by
  have : (0#32 : BitVec 32).toInt = 0 := by decide
  rw [this]; norm_num

/-- Division of a real by a nonzero real, as an extended real. -/
theorem div_coe_coe (x y : ℝ) (hy : y ≠ 0) : Ideal.div (x : EReal) (y : EReal) = ((x / y : ℝ) : EReal) := by
  rw [Ideal.div_coe hy, ← EReal.coe_mul, mul_one_div]

/-- The elimination's value on a real matrix is a d - b c. -/
theorem luDet_coe (a b c d : ℝ) :
    luDet (a : EReal) (b : EReal) (c : EReal) (d : EReal) = (a : EReal) * (d : EReal) - (b : EReal) * (c : EReal) := by
  unfold luDet
  rw [swapBit_coe]
  by_cases hsw : |a| < |c|
  · -- the rows are exchanged; c is not zero
    have hc : c ≠ 0 := by
      intro h; rw [h, abs_zero] at hsw; exact absurd hsw (not_lt.mpr (abs_nonneg a))
    rw [decide_eq_true hsw]
    simp only [select_true]
    rw [isZero_coe, decide_eq_false hc]
    simp only [select_false]
    rw [toInt_neg_one, div_coe_coe a c hc]
    rw [← EReal.coe_mul, ← EReal.coe_mul, ← EReal.coe_sub, ← EReal.coe_mul, ← EReal.coe_mul, ← EReal.coe_mul, ← EReal.coe_sub]
    congr 1
    field_simp
    ring
  · rw [decide_eq_false hsw]
    simp only [select_false]
    rw [isZero_coe]
    by_cases ha : a = 0
    · -- the pivot is zero, and so is c
      have hc : c = 0 := by
        rw [ha, abs_zero, not_lt] at hsw; exact abs_eq_zero.mp (le_antisymm hsw (abs_nonneg c))
      rw [decide_eq_true ha]
      simp only [select_true]
      rw [toInt_one, toInt_zero, ha, hc]
      rw [← EReal.coe_mul, ← EReal.coe_mul, ← EReal.coe_sub, ← EReal.coe_mul, ← EReal.coe_mul, ← EReal.coe_mul, ← EReal.coe_sub]
      congr 1
      ring
    · rw [decide_eq_false ha]
      simp only [select_false]
      rw [toInt_one, div_coe_coe c a ha]
      rw [← EReal.coe_mul, ← EReal.coe_mul, ← EReal.coe_sub, ← EReal.coe_mul, ← EReal.coe_mul, ← EReal.coe_mul, ← EReal.coe_sub]
      congr 1
      field_simp

/-- A finite sum of reals, as extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A finite sum of extended reals that are each real is real. -/
theorem sum_real {ι : Type} [Fintype ι] (f : ι → EReal) (h : ∀ i, ∃ r : ℝ, f i = (r : EReal)) :
    ∃ r : ℝ, ∑ i, f i = (r : EReal) := by
  choose g hg using h
  exact ⟨∑ i, g i, by rw [← coe_sum]; exact Finset.sum_congr rfl fun i _ => hg i⟩

end Cert.ReferenceIdeal.RefLU

end
-- ==== Proof.RefReadDet.lean ====
/-
  The determinant function read at row b. Every stage is a slice, a reshape that drops or keeps unit axes, a
  broadcast of a per-row bit, a comparison, a selection or a product at an index: the entry vectors read the matrix at
  (b, 1, 0) and (b, 0, 0); the rows read it at (b, 1, j) and (b, 0, j); the exchanged rows select between them by the
  row's bit; the columns of a [64, 2] array read it at (b, 0) and (b, 1). So the result at b is the elimination's
  value on the four entries of matrix b.
-/
import proofs.«153985_j17600775979806_2_alg».proof.Proof.RefTerm
import proofs.«153985_j17600775979806_2_alg».proof.Proof.RefLU
import Idealize.ShloMosaic.Lib.ValueIdx
import Idealize.ShloMosaic.Lib.Pipeline.Value
import Idealize.ShloMosaic.Lib.IdealHost

noncomputable section

namespace Cert.ReferenceIdeal.RefRead

open Idealize.ShloMosaic Idealize.ShloMosaic.ValueIdx Cert.ReferenceIdeal Cert.ReferenceIdeal.Gen Cert.ReferenceIdeal.RefRun
open Cert.ReferenceIdeal.RefLU

variable (M : FVec Ideal S64x2x2 .f32) (b : Fin 64)

theorem e10_apply : e10 M (ix1 b) = M (ix3 b (1 : Fin 2) (0 : Fin 2)) := by
  unfold e10
  refine (shapeCast_apply _ shapeCasts_S64x1x1_S64 (ix1 b) (ix3 b (0 : Fin 1) (0 : Fin 1)) ?_).trans ?_
  · rw [Shape.rowMajor_val_three, Shape.rowMajor_val_one]
    show (b.val * 1 + 0) * 1 + 0 = b.val
    omega
  · refine extractStridedSlice_apply _ M slices_S64x2x2_S64x1x1_0_1_0 _ (ix3 b (1 : Fin 2) (0 : Fin 2)) ?_
    intro a
    match a with
    | ⟨0, _⟩ => show b.val = 0 + b.val; omega
    | ⟨1, _⟩ => rfl
    | ⟨2, _⟩ => rfl

theorem e00_apply : e00 M (ix1 b) = M (ix3 b (0 : Fin 2) (0 : Fin 2)) := by
  unfold e00
  refine (shapeCast_apply _ shapeCasts_S64x1x1_S64 (ix1 b) (ix3 b (0 : Fin 1) (0 : Fin 1)) ?_).trans ?_
  · rw [Shape.rowMajor_val_three, Shape.rowMajor_val_one]
    show (b.val * 1 + 0) * 1 + 0 = b.val
    omega
  · refine extractStridedSlice_apply _ M slices_S64x2x2_S64x1x1_0_0_0 _ (ix3 b (0 : Fin 2) (0 : Fin 2)) ?_
    intro a
    match a with
    | ⟨0, _⟩ => show b.val = 0 + b.val; omega
    | ⟨1, _⟩ => rfl
    | ⟨2, _⟩ => rfl

/-- The exchange bit of row b. -/
theorem swap_apply : swap M (ix1 b) = swapBit (M (ix3 b (0 : Fin 2) (0 : Fin 2))) (M (ix3 b (1 : Fin 2) (0 : Fin 2))) := by
  show Ideal.cmp .ogt (max (e10 M (ix1 b)) (-(e10 M (ix1 b)))) (max (e00 M (ix1 b)) (-(e00 M (ix1 b)))) = _
  rw [e10_apply, e00_apply]
  rfl

theorem swap2_apply (j : Fin 2) : swap2 M (ix2 b j) = swap M (ix1 b) := by
  unfold swap2
  refine (broadcastInDim_apply _ bcast_S64x1_S64x2_0_1 _ (ix2 b j) (ix2 b (0 : Fin 1)) ?_).trans ?_
  · intro a
    match a with
    | ⟨0, _⟩ => rfl
    | ⟨1, _⟩ => rfl
  · refine broadcastInDim_apply _ bcast_S64_S64x1_0 _ (ix2 b (0 : Fin 1)) (ix1 b) ?_
    intro a
    match a with
    | ⟨0, _⟩ => rfl

theorem row1_apply (j : Fin 2) : row1 M (ix2 b j) = M (ix3 b (1 : Fin 2) j) := by
  unfold row1
  refine (shapeCast_apply _ shapeCasts_S64x1x2_S64x2 (ix2 b j) (ix3 b (0 : Fin 1) j) ?_).trans ?_
  · rw [Shape.rowMajor_val_three, Shape.rowMajor_val_two]
    show (b.val * 1 + 0) * 2 + j.val = b.val * 2 + j.val
    omega
  · refine extractStridedSlice_apply _ M slices_S64x2x2_S64x1x2_0_1_0 _ (ix3 b (1 : Fin 2) j) ?_
    intro a
    match a with
    | ⟨0, _⟩ => show b.val = 0 + b.val; omega
    | ⟨1, _⟩ => rfl
    | ⟨2, _⟩ => show j.val = 0 + j.val; omega

theorem row0_apply (j : Fin 2) : row0 M (ix2 b j) = M (ix3 b (0 : Fin 2) j) := by
  unfold row0
  refine (shapeCast_apply _ shapeCasts_S64x1x2_S64x2 (ix2 b j) (ix3 b (0 : Fin 1) j) ?_).trans ?_
  · rw [Shape.rowMajor_val_three, Shape.rowMajor_val_two]
    show (b.val * 1 + 0) * 2 + j.val = b.val * 2 + j.val
    omega
  · refine extractStridedSlice_apply _ M slices_S64x2x2_S64x1x2_0_0_0 _ (ix3 b (0 : Fin 2) j) ?_
    intro a
    match a with
    | ⟨0, _⟩ => show b.val = 0 + b.val; omega
    | ⟨1, _⟩ => rfl
    | ⟨2, _⟩ => show j.val = 0 + j.val; omega

/-- The pivot row and the other row at (b, j), by the row's bit. -/
theorem rowU_apply (j : Fin 2) : rowU M (ix2 b j)
    = Scalar.select (swapBit (M (ix3 b (0 : Fin 2) (0 : Fin 2))) (M (ix3 b (1 : Fin 2) (0 : Fin 2))))
        (M (ix3 b (1 : Fin 2) j)) (M (ix3 b (0 : Fin 2) j)) := by
  unfold rowU
  rw [select_apply, swap2_apply, swap_apply, row1_apply, row0_apply]
theorem rowV_apply (j : Fin 2) : rowV M (ix2 b j)
    = Scalar.select (swapBit (M (ix3 b (0 : Fin 2) (0 : Fin 2))) (M (ix3 b (1 : Fin 2) (0 : Fin 2))))
        (M (ix3 b (0 : Fin 2) j)) (M (ix3 b (1 : Fin 2) j)) := by
  unfold rowV
  rw [select_apply, swap2_apply, swap_apply, row1_apply, row0_apply]

theorem col0_apply (R : FVec Ideal S64x2 .f32) : col0 R (ix1 b) = R (ix2 b (0 : Fin 2)) := by
  unfold col0
  refine (shapeCast_apply _ shapeCasts_S64x1_S64 (ix1 b) (ix2 b (0 : Fin 1)) ?_).trans ?_
  · rw [Shape.rowMajor_val_two, Shape.rowMajor_val_one]
    show b.val * 1 + 0 = b.val
    omega
  · refine extractStridedSlice_apply _ R slices_S64x2_S64x1_0_0 _ (ix2 b (0 : Fin 2)) ?_
    intro a
    match a with
    | ⟨0, _⟩ => show b.val = 0 + b.val; omega
    | ⟨1, _⟩ => rfl

theorem col1_apply (R : FVec Ideal S64x2 .f32) : col1 R (ix1 b) = R (ix2 b (1 : Fin 2)) := by
  unfold col1
  refine (shapeCast_apply _ shapeCasts_S64x1_S64 (ix1 b) (ix2 b (0 : Fin 1)) ?_).trans ?_
  · rw [Shape.rowMajor_val_two, Shape.rowMajor_val_one]
    show b.val * 1 + 0 = b.val
    omega
  · refine extractStridedSlice_apply _ R slices_S64x2_S64x1_0_1 _ (ix2 b (1 : Fin 2)) ?_
    intro a
    match a with
    | ⟨0, _⟩ => show b.val = 0 + b.val; omega
    | ⟨1, _⟩ => rfl

theorem zeros_apply (j : S64.Idx) : zeros j = Ideal.ofBits .f32 0x00000000#32 := by
  unfold zeros
  rw [broadcastInDim_scalar_apply, constant_apply]

theorem intVec_apply (w : BitVec 32) (j : S64.Idx) : intVec w j = ((w.toInt : ℝ) : EReal) := by
  unfold intVec
  rw [broadcastInDim_scalar_apply]
  rfl

theorem pivZero_apply : pivZero M (ix1 b) = Ideal.cmp .oeq (rowU M (ix2 b (0 : Fin 2))) (Ideal.ofBits .f32 0x00000000#32) := by
  show Ideal.cmp .oeq (col0 (rowU M) (ix1 b)) (zeros (ix1 b)) = _
  rw [col0_apply, zeros_apply]

theorem sign_apply : sign M (ix1 b)
    = (((Scalar.select (swap M (ix1 b)) (4294967295#32 : BitVec 32) (1#32 : BitVec 32)).toInt : ℝ) : EReal) := by
  unfold sign
  rw [sitofp_apply, select_apply, broadcastInDim_scalar_apply, broadcastInDim_scalar_apply]
  rfl

/-- The determinant function's result at row b is the elimination's value on the four entries of matrix b. -/
theorem det_apply : det M (ix1 b)
    = luDet (M (ix3 b (0 : Fin 2) (0 : Fin 2))) (M (ix3 b (0 : Fin 2) (1 : Fin 2)))
        (M (ix3 b (1 : Fin 2) (0 : Fin 2))) (M (ix3 b (1 : Fin 2) (1 : Fin 2))) := by
  unfold det schur lfac psafe
  simp only [mulf_apply, subf_apply, select_apply, hostDivf_apply, sign_apply, col0_apply, col1_apply, pivZero_apply,
    intVec_apply, rowU_apply, rowV_apply, swap_apply]
  rfl

end Cert.ReferenceIdeal.RefRead

end
-- ==== Proof.RefReadLoss.lean ====
/-
  The mean read at its one index: the quotient by the word of 64 of the sum, from the zero word, over the 64 rows of
  -log(|D b| + eps). The host's sum over the one axis of a length-64 vector is the initial value plus the sum over
  that axis's coordinates; the absolute value is max(x, -x), the constant is broadcast from a scalar.
-/
import proofs.«153985_j17600775979806_2_alg».proof.Proof.RefTerm
import proofs.«153985_j17600775979806_2_alg».proof.Proof.Spec
import Idealize.ShloMosaic.Lib.ValueIdx
import Idealize.ShloMosaic.Lib.IdealHost
import Idealize.ShloMosaic.PureOps.Ideal.Laws

noncomputable section

open scoped BigOperators

namespace Cert.ReferenceIdeal.RefRead

open Idealize.ShloMosaic Idealize.ShloMosaic.ValueIdx Cert.ReferenceIdeal Cert.ReferenceIdeal.Gen Cert.ReferenceIdeal.RefRun
open Cert.DetLoss

/-- The indices of a length-64 vector are the 64 row numbers. -/
def rowEquiv : Fin 64 ≃ S64.Idx where
  toFun k := ix1 k
  invFun i := (i 0 : Fin 64)
  left_inv _ := rfl
  right_inv i := (eq_ix1 i).symm

/-- One summand: -log(|D b| + eps). -/
theorem summand_apply (D : FVec Ideal S64 .f32) (i : S64.Idx) :
    Host.negf (F := Ideal) (Host.log (F := Ideal)
        (addf (Host.absf (F := Ideal) D)
          (broadcastInDim S64 ![] bcast_S_S64 (constant (F := Ideal) S_ .f32 0x3A83126F#32)))) i
      = -(Ideal.log (max (D i) (-(D i)) + eps)) := by
  show -(Ideal.log (max (D i) (-(D i)) + broadcastInDim S64 ![] bcast_S_S64 (constant (F := Ideal) S_ .f32 0x3A83126F#32) i)) = _
  rw [broadcastInDim_scalar_apply, constant_apply]
  rfl

/-- The mean of -log(|D b| + eps) over the 64 rows, at the scalar's index. -/
theorem lossOf_apply (D : FVec Ideal S64 .f32) (j : S_.Idx) : lossOf D j = loss (fun b => D (ix1 b)) := by
  unfold lossOf loss
  rw [hostDivf_apply, hostReduceAdd_apply, constant_apply, constant_apply,
    Ideal.hostReduceAdd_total reducesTo_S64_S_d0 (fun a => a.elim0), ← Equiv.sum_comp rowEquiv]
  unfold zero batch
  congr 2

end Cert.ReferenceIdeal.RefRead

end
-- ==== Proof.RefValue.lean ====
/-
  The reference's term is the mean of -log(|det| + eps) over the determinants of the four sums of products.

  At the scalar's index the term is the mean over the rows b of -log(|D b| + eps), D b the determinant function's
  result at b; that result is the elimination's value on the four entries of matrix b; the entries are the four sums of
  products of (x, 1 - x) with (y, 1 - y) over the pixels of row b. For real pixel values every product is real, the word
  of 1.0 is 1, so every sum is real, and the elimination's value on a real matrix is a d - b c.
-/
import proofs.«153985_j17600775979806_2_alg».proof.Proof.RefReadMat
import proofs.«153985_j17600775979806_2_alg».proof.Proof.RefReadDet
import proofs.«153985_j17600775979806_2_alg».proof.Proof.RefReadLoss
import proofs.«153985_j17600775979806_2_alg».proof.Proof.RefRun

noncomputable section

open scoped BigOperators

namespace Cert.ReferenceIdeal.RefValue

open Idealize.ShloMosaic Idealize.ShloMosaic.ValueIdx Cert.ReferenceIdeal Cert.ReferenceIdeal.RefRun Cert.ReferenceIdeal.RefRead
open Cert.DetLoss

/-- A product of two reals, as extended reals, is real. -/
theorem mul_real {x y : EReal} (hx : ∃ r : ℝ, x = (r : EReal)) (hy : ∃ r : ℝ, y = (r : EReal)) :
    ∃ r : ℝ, x * y = (r : EReal) := by
  obtain ⟨r, rfl⟩ := hx
  obtain ⟨s, rfl⟩ := hy
  exact ⟨r * s, (EReal.coe_mul r s).symm⟩

/-- The complement 1 - x of a real is real: the word of 1.0 is 1. -/
theorem one_sub_real {x : EReal} (hx : ∃ r : ℝ, x = (r : EReal)) : ∃ r : ℝ, one - x = (r : EReal) := by
  obtain ⟨r, rfl⟩ := hx
  refine ⟨1 - r, ?_⟩
  unfold one
  rw [Ideal.ofBits_one_f32, ← EReal.coe_one, ← EReal.coe_sub]

/-- Every pixel of a row of an array of reals is real. -/
theorem rows_real (X : FVec Ideal S64x1x512x512 .f32) (hX : ∀ i, ∃ r : ℝ, X i = (r : EReal)) (b : Fin 64) (p : Fin 262144) :
    ∃ r : ℝ, rows X b p = (r : EReal) := hX _

variable (X Y : FVec Ideal S64x1x512x512 .f32)
  (hX : ∀ i, ∃ r : ℝ, X i = (r : EReal)) (hY : ∀ i, ∃ r : ℝ, Y i = (r : EReal))

include hX hY in
theorem m00_real (b : Fin 64) : ∃ r : ℝ, m00 (rows X) (rows Y) b = (r : EReal) :=
  RefLU.sum_real _ fun p => mul_real (rows_real X hX b p) (rows_real Y hY b p)
include hX hY in
theorem m01_real (b : Fin 64) : ∃ r : ℝ, m01 (rows X) (rows Y) b = (r : EReal) :=
  RefLU.sum_real _ fun p => mul_real (rows_real X hX b p) (one_sub_real (rows_real Y hY b p))
include hX hY in
theorem m10_real (b : Fin 64) : ∃ r : ℝ, m10 (rows X) (rows Y) b = (r : EReal) :=
  RefLU.sum_real _ fun p => mul_real (one_sub_real (rows_real X hX b p)) (rows_real Y hY b p)
include hX hY in
theorem m11_real (b : Fin 64) : ∃ r : ℝ, m11 (rows X) (rows Y) b = (r : EReal) :=
  RefLU.sum_real _ fun p => mul_real (one_sub_real (rows_real X hX b p)) (one_sub_real (rows_real Y hY b p))

include hX hY in
/-- The determinant function's result at row b is the determinant of the four sums. -/
theorem det_eq (b : Fin 64) : det (mat X Y) (ix1 b) = detR (rows X) (rows Y) b := by
  rw [det_apply, mat00, mat01, mat10, mat11]
  obtain ⟨a, ha⟩ := m00_real X Y hX hY b
  obtain ⟨b', hb⟩ := m01_real X Y hX hY b
  obtain ⟨c, hc⟩ := m10_real X Y hX hY b
  obtain ⟨d, hd⟩ := m11_real X Y hX hY b
  unfold detR
  rw [ha, hb, hc, hd]
  exact RefLU.luDet_coe a b' c d

include hX hY in
/-- The reference's term, for real pixel values. -/
theorem term_eq :
    Cert.ReferenceIdeal.RefRun.term X Y
      = fun _ => Cert.DetLoss.loss (Cert.DetLoss.detR (Cert.DetLoss.rows X) (Cert.DetLoss.rows Y)) := by
  funext j
  unfold term
  rw [lossOf_apply]
  exact congrArg Cert.DetLoss.loss (funext fun b => det_eq X Y hX hY b)

end Cert.ReferenceIdeal.RefValue

end
-- ==== Proof.lean ====
/-
  The proof of Cert.Claim for the per-batch determinant loss.

  The kernel reads the two [64, 1, 512, 512] arguments as 64 rows of 262144 pixels and accumulates, over a grid of two row
  blocks by four column blocks, the three row sums S_xy = sum x y, S_x = sum x, S_y = sum y; at the last column block it
  stores  0 - log(|S_xy (N - S_x - S_y + S_xy) - (S_x - S_xy)(S_y - S_xy)| + eps)  per row, and the host takes the mean
  of the 64 rows. The reference builds, per row, the 2x2 matrix of the sums of products of (x, 1 - x) with (y, 1 - y),
  takes its determinant by elimination with a pivot, and returns the mean of  -log(|det| + eps).

  Both are  loss(det)  for one function  loss  (Spec.lean): the kernel with det = detK (KStep, KIdeal, KGrid, KTail: the
  kernel's value read off its frame run), the reference with det = detR (RefRun: its run; RefValue: the run's term at
  an index and the elimination's value on real entries). On real pixel values detK = detR (Algebra.lean): the
  distributive laws that expand the products of complements hold for reals; the precondition says every entry of both
  arguments is a real (Finite.lean). The three frames: the two kernels' are their frame runs, the reference's is its run
  with the result dropped. The idealization rewrote nothing, so it preserves the kernel trivially.
-/
import proofs.«153985_j17600775979806_2_alg».proof.Defs
import proofs.«153985_j17600775979806_2_alg».proof.Proof.Gen.Kernel
import proofs.«153985_j17600775979806_2_alg».proof.Proof.Gen.Kernel.Frame
import proofs.«153985_j17600775979806_2_alg».proof.Proof.Gen.KernelIdeal
import proofs.«153985_j17600775979806_2_alg».proof.Proof.Gen.KernelIdeal.Frame
import proofs.«153985_j17600775979806_2_alg».proof.Proof.Gen.ReferenceIdeal
import proofs.«153985_j17600775979806_2_alg».proof.Proof.Gen.Pre_finite_inputs
import proofs.«153985_j17600775979806_2_alg».proof.Proof.KTail
import proofs.«153985_j17600775979806_2_alg».proof.Proof.Algebra
import proofs.«153985_j17600775979806_2_alg».proof.Proof.Finite
import proofs.«153985_j17600775979806_2_alg».proof.Proof.RefRun
import proofs.«153985_j17600775979806_2_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- From memories that agree on the arguments, whose entries the precondition makes real, the kernel ends at
    loss(detK) and the reference at loss(detR) of the same rows, and the two determinants agree row by row. -/
theorem algebraic : Cert.algebraic_KernelIdeal_ReferenceIdeal := by
  intro m ρ m' ρ' hpre hagree
  refine ⟨fun c => Cert.KernelIdeal.KV.outK m c, Cert.KernelIdeal.KV.run m ρ, ?_⟩
  refine (θ_run Cert.ReferenceIdeal.defs _ _).mono (fun _ h c => ⟨(h c).1.trans ?_, (h c).2⟩)
    (Cert.ReferenceIdeal.RefRun.run m' ρ')
  show _ = Cert.KernelIdeal.KV.outK m c
  rw [(hagree c).1, (hagree c).2]
  obtain ⟨hX, hY⟩ := Cert.Finite.finite_of_pre _ _ (hpre c)
  rw [Cert.ReferenceIdeal.RefValue.term_eq _ _ hX hY, Cert.KernelIdeal.KV.outK_eq]
  funext _
  refine congrArg Cert.DetLoss.loss (funext fun b => ?_)
  exact (Cert.DetLoss.detK_eq_detR _ _ (fun _ _ => hX _) (fun _ _ => hY _) b).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
